-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x32x128 : Shape := ⟨4, ![8, 1, 32, 128]⟩
abbrev S8x32x128x4096 : Shape := ⟨4, ![8, 32, 128, 4096]⟩
abbrev S8x32x4096x128 : Shape := ⟨4, ![8, 32, 4096, 128]⟩
abbrev S1x64 : Shape := ⟨2, ![1, 64]⟩
abbrev S_ : Shape := ⟨0, ![]⟩

class Facts : Prop where
  bcast_S_S8x1x32x128 : S_.BroadcastsInDim S8x1x32x128 (![] : Fin 0 → Fin S8x1x32x128.rank)
  reducesTo_S8x1x32x128_S_d0_1_2_3 : S8x1x32x128.ReducesTo [0, 1, 2, 3] S_
  h_S_ : 0 < S_.numel
  bcast_S_S8x32x128x4096 : S_.BroadcastsInDim S8x32x128x4096 (![] : Fin 0 → Fin S8x32x128x4096.rank)
  reducesTo_S8x32x128x4096_S_d0_1_2_3 : S8x32x128x4096.ReducesTo [0, 1, 2, 3] S_
  bcast_S_S8x32x4096x128 : S_.BroadcastsInDim S8x32x4096x128 (![] : Fin 0 → Fin S8x32x4096x128.rank)
  reducesTo_S8x32x4096x128_S_d0_1_2_3 : S8x32x4096x128.ReducesTo [0, 1, 2, 3] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S8x32x4096x128 .f32) (main_arg5 : FVec F S1x64 .f32) (main_v13 : IVec S_ 1) (main_v16 : IVec S8x32x128x4096 1) : IVec S_ 1 :=
  let main_c_5 : IVec S_ 1 := constantI S_ 1 1#1
  let main_v17 : IVec S_ 1 := (fun x v => Host.reduce IntOp.andi x v reducesTo_S8x32x128x4096_S_d0_1_2_3 h_S_) main_v16 main_c_5
  let main_v18 : IVec S_ 1 := andi main_v13 main_v17
  let main_v19 : FVec F S8x32x4096x128 .f32 := Host.absf main_arg4
  let main_cst_6 : FVec F S_ .f32 := constant S_ .f32 0x7F800000#32
  let main_v20 : FVec F S8x32x4096x128 .f32 := broadcastInDim S8x32x4096x128 ![] bcast_S_S8x32x4096x128 main_cst_6
  let main_v21 : IVec S8x32x4096x128 1 := cmpf .olt main_v19 main_v20
  let main_c_7 : IVec S_ 1 := constantI S_ 1 1#1
  let main_v22 : IVec S_ 1 := (fun x v => Host.reduce IntOp.andi x v reducesTo_S8x32x4096x128_S_d0_1_2_3 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  main_v28

def fn {F : FTy → Type} [FloatOps F] (main_arg0 : FVec F S8x1x32x128 .f32) (main_arg1 : FVec F S8x1x32x128 .f32) (main_arg2 : FVec F S8x1x32x128 .f32) (main_arg3 : FVec F S8x32x128x4096 .f32) (main_arg4 : FVec F S8x32x4096x128 .f32) (main_arg5 : FVec F S1x64 .f32) : IVec S_ 1 :=
  let main_v0 : FVec F S8x1x32x128 .f32 := Host.absf main_arg0
  let main_cst : FVec F S_ .f32 := constant S_ .f32 0x7F800000#32
  let main_v1 : FVec F S8x1x32x128 .f32 := broadcastInDim S8x1x32x128 ![] bcast_S_S8x1x32x128 main_cst
  let main_v2 : IVec S8x1x32x128 1 := cmpf .olt main_v0 main_v1
  let main_c : IVec S_ 1 := constantI S_ 1 1#1
  let main_v3 : IVec S_ 1 := (fun x v => Host.reduce IntOp.andi x v reducesTo_S8x1x32x128_S_d0_1_2_3 h_S_) main_v2 main_c
  let main_v4 : FVec F S8x1x32x128 .f32 := Host.absf main_arg1
  let main_cst_0 : FVec F S_ .f32 := constant S_ .f32 0x7F800000#32
  let main_v5 : FVec F S8x1x32x128 .f32 := broadcastInDim S8x1x32x128 ![] bcast_S_S8x1x32x128 main_cst_0
  let main_v6 : IVec S8x1x32x128 1 := cmpf .olt main_v4 main_v5
  let main_c_1 : IVec S_ 1 := constantI S_ 1 1#1
  let main_v7 : IVec S_ 1 := (fun x v => Host.reduce IntOp.andi x v reducesTo_S8x1x32x128_S_d0_1_2_3 h_S_) main_v6 main_c_1
  let main_v8 : IVec S_ 1 := andi main_v3 main_v7
  let main_v9 : FVec F S8x1x32x128 .f32 := Host.absf main_arg2
  let main_cst_2 : FVec F S_ .f32 := constant S_ .f32 0x7F800000#32
  let main_v10 : FVec F S8x1x32x128 .f32 := broadcastInDim S8x1x32x128 ![] bcast_S_S8x1x32x128 main_cst_2
  let main_v11 : IVec S8x1x32x128 1 := cmpf .olt main_v9 main_v10
  let main_c_3 : IVec S_ 1 := constantI S_ 1 1#1
  let main_v12 : IVec S_ 1 := (fun x v => Host.reduce IntOp.andi x v reducesTo_S8x1x32x128_S_d0_1_2_3 h_S_) main_v11 main_c_3
  let main_v13 : IVec S_ 1 := andi main_v8 main_v12
  let main_v14 : FVec F S8x32x128x4096 .f32 := Host.absf main_arg3
  let main_cst_4 : FVec F S_ .f32 := constant S_ .f32 0x7F800000#32
  let main_v15 : FVec F S8x32x128x4096 .f32 := broadcastInDim S8x32x128x4096 ![] bcast_S_S8x32x128x4096 main_cst_4
  let main_v16 : IVec S8x32x128x4096 1 := cmpf .olt main_v14 main_v15
  fn_part1 (F := F) main_arg4 main_arg5 main_v13 main_v16
-- ==== Kernel.lean ====
abbrev S8x1x32x128 : Shape := ⟨4, ![8, 1, 32, 128]⟩
abbrev S8x32x128x4096 : Shape := ⟨4, ![8, 32, 128, 4096]⟩
abbrev S8x32x4096x128 : Shape := ⟨4, ![8, 32, 4096, 128]⟩
abbrev S1x64 : Shape := ⟨2, ![1, 64]⟩
abbrev S8x32x1x128 : Shape := ⟨4, ![8, 32, 1, 128]⟩
abbrev S8x32x128x4097 : Shape := ⟨4, ![8, 32, 128, 4097]⟩
abbrev S8x32x4097x128 : Shape := ⟨4, ![8, 32, 4097, 128]⟩
abbrev S1x2x1x128 : Shape := ⟨4, ![1, 2, 1, 128]⟩
abbrev S1x2x128x4096 : Shape := ⟨4, ![1, 2, 128, 4096]⟩
abbrev S1x2x4096x128 : Shape := ⟨4, ![1, 2, 4096, 128]⟩
abbrev S1x2x128x4097 : Shape := ⟨4, ![1, 2, 128, 4097]⟩
abbrev S1x2x4097x128 : Shape := ⟨4, ![1, 2, 4097, 128]⟩
abbrev S1x1x1x128 : Shape := ⟨4, ![1, 1, 1, 128]⟩
abbrev S1x128 : Shape := ⟨2, ![1, 128]⟩
abbrev S1x1x128x4096 : Shape := ⟨4, ![1, 1, 128, 4096]⟩
abbrev S128x4096 : Shape := ⟨2, ![128, 4096]⟩
abbrev S1x1x4096x128 : Shape := ⟨4, ![1, 1, 4096, 128]⟩
abbrev S4096x128 : Shape := ⟨2, ![4096, 128]⟩
abbrev S1 : Shape := ⟨1, ![1]⟩
abbrev S1x1 : Shape := ⟨2, ![1, 1]⟩
abbrev S1x4096 : Shape := ⟨2, ![1, 4096]⟩
abbrev S128x1 : Shape := ⟨2, ![128, 1]⟩
abbrev S1x1x128x1 : Shape := ⟨4, ![1, 1, 128, 1]⟩

abbrev nBuf : Space → Nat
  | .hbm => 13
  | .vmem => 17
  | .smem => 0
  | _ => 0

abbrev bufTy : (tb : Table) → Fin (tcTables nBuf tb) → BufTy
  | .hbm, ⟨0, _⟩ => ⟨S8x1x32x128, .f32⟩
  | .hbm, ⟨1, _⟩ => ⟨S8x1x32x128, .f32⟩
  | .hbm, ⟨2, _⟩ => ⟨S8x1x32x128, .f32⟩
  | .hbm, ⟨3, _⟩ => ⟨S8x32x128x4096, .f32⟩
  | .hbm, ⟨4, _⟩ => ⟨S8x32x4096x128, .f32⟩
  | .hbm, ⟨5, _⟩ => ⟨S1x64, .f32⟩
  | .hbm, ⟨6, _⟩ => ⟨S8x32x1x128, .f32⟩
  | .hbm, ⟨7, _⟩ => ⟨S8x32x1x128, .f32⟩
  | .hbm, ⟨8, _⟩ => ⟨S8x32x1x128, .f32⟩
  | .hbm, ⟨9, _⟩ => ⟨S8x32x1x128, .f32⟩
  | .hbm, ⟨10, _⟩ => ⟨S8x32x128x4097, .f32⟩
  | .hbm, ⟨11, _⟩ => ⟨S8x32x4097x128, .f32⟩
  | .hbm, ⟨12, _⟩ => ⟨S8x1x32x128, .f32⟩
  | .local _ .vmem, ⟨0, _⟩ => ⟨S1x2x1x128, .f32⟩
  | .local _ .vmem, ⟨1, _⟩ => ⟨S1x2x1x128, .f32⟩
  | .local _ .vmem, ⟨2, _⟩ => ⟨S1x2x1x128, .f32⟩
  | .local _ .vmem, ⟨3, _⟩ => ⟨S1x2x1x128, .f32⟩
  | .local _ .vmem, ⟨4, _⟩ => ⟨S1x2x1x128, .f32⟩
  | .local _ .vmem, ⟨5, _⟩ => ⟨S1x2x1x128, .f32⟩
  | .local _ .vmem, ⟨6, _⟩ => ⟨S1x64, .f32⟩
  | .local _ .vmem, ⟨7, _⟩ => ⟨S1x2x128x4096, .f32⟩
  | .local _ .vmem, ⟨8, _⟩ => ⟨S1x2x128x4096, .f32⟩
  | .local _ .vmem, ⟨9, _⟩ => ⟨S1x2x4096x128, .f32⟩
  | .local _ .vmem, ⟨10, _⟩ => ⟨S1x2x4096x128, .f32⟩
  | .local _ .vmem, ⟨11, _⟩ => ⟨S1x2x1x128, .f32⟩
  | .local _ .vmem, ⟨12, _⟩ => ⟨S1x2x1x128, .f32⟩
  | .local _ .vmem, ⟨13, _⟩ => ⟨S1x2x128x4097, .f32⟩
  | .local _ .vmem, ⟨14, _⟩ => ⟨S1x2x128x4097, .f32⟩
  | .local _ .vmem, ⟨15, _⟩ => ⟨S1x2x4097x128, .f32⟩
  | .local _ .vmem, ⟨16, _⟩ => ⟨S1x2x4097x128, .f32⟩
  | _, _ => ⟨S8x1x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x128x4097 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x4097x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  transposes_S8x1x32x128_S8x32x1x128_0_2_1_3 : S8x1x32x128.Transposes [0, 2, 1, 3] S8x32x1x128
  inb_S1x64_S1x64_0_0 : ∀ a, (![0, 0] : Fin 2 → Nat) a + S1x64.size a ≤ S1x64.size a
  h_S1x64 : 0 < S1x64.numel
  inb_S1x2x1x128_S1x1x1x128_0_0_0_0 : ∀ a, (![0, 0, 0, 0] : Fin 4 → Nat) a + S1x1x1x128.size a ≤ S1x2x1x128.size a
  h_S1x1x1x128 : 0 < S1x1x1x128.numel
  shapeCasts_S1x1x1x128_S1x128 : S1x1x1x128.ShapeCasts S1x128
  slices_S1x128_o0_0_S1x64 : S1x128.Slices ![0, 0] S1x64
  concatenates_S1x64_S1x64_S1x128_d1 : Shape.Concatenates [S1x64, S1x64] S1x128 1
  inb_S1x2x128x4096_S1x1x128x4096_0_0_0_0 : ∀ a, (![0, 0, 0, 0] : Fin 4 → Nat) a + S1x1x128x4096.size a ≤ S1x2x128x4096.size a
  h_S1x1x128x4096 : 0 < S1x1x128x4096.numel
  shapeCasts_S1x1x128x4096_S128x4096 : S1x1x128x4096.ShapeCasts S128x4096
  inb_S1x2x4096x128_S1x1x4096x128_0_0_0_0 : ∀ a, (![0, 0, 0, 0] : Fin 4 → Nat) a + S1x1x4096x128.size a ≤ S1x2x4096x128.size a
  h_S1x1x4096x128 : 0 < S1x1x4096x128.numel
  shapeCasts_S1x1x4096x128_S4096x128 : S1x1x4096x128.ShapeCasts S4096x128
  reduces_S1x128_S1 : S1x128.Reduces [1] S1
  shapeCasts_S1_S1x1 : S1.ShapeCasts S1x1
  bitsLt_bf16_f32 : FTy.bits .bf16 < FTy.bits .f32
  reduces_S1x4096_S1 : S1x4096.Reduces [1] S1
  broadcasts_S1x1_S1x4096 : S1x1.Broadcasts S1x4096
  broadcasts_S1x1_S1x128 : S1x1.Broadcasts S1x128
  shapeCasts_S1x128_S1x1x1x128 : S1x128.ShapeCasts S1x1x1x128
  transposes_S1x128_p1_0_S128x1 : S1x128.Transposes [1, 0] S128x1
  inb_S1x2x128x4097_S1x1x128x1_0_0_0_0 : ∀ a, (![0, 0, 0, 0] : Fin 4 → Nat) a + S1x1x128x1.size a ≤ S1x2x128x4097.size a
  h_S1x1x128x1 : 0 < S1x1x128x1.numel
  shapeCasts_S1x1x128x1_S128x1 : S1x1x128x1.ShapeCasts S128x1
  shapeCasts_S128x1_S1x1x128x1 : S128x1.ShapeCasts S1x1x128x1
  inb_S1x2x128x4097_S1x1x128x4096_0_0_0_1 : ∀ a, (![0, 0, 0, 1] : Fin 4 → Nat) a + S1x1x128x4096.size a ≤ S1x2x128x4097.size a
  shapeCasts_S128x4096_S1x1x128x4096 : S128x4096.ShapeCasts S1x1x128x4096
  inb_S1x2x4097x128_S1x1x1x128_0_0_0_0 : ∀ a, (![0, 0, 0, 0] : Fin 4 → Nat) a + S1x1x1x128.size a ≤ S1x2x4097x128.size a
  inb_S1x2x4097x128_S1x1x4096x128_0_0_1_0 : ∀ a, (![0, 0, 1, 0] : Fin 4 → Nat) a + S1x1x4096x128.size a ≤ S1x2x4097x128.size a
  shapeCasts_S4096x128_S1x1x4096x128 : S4096x128.ShapeCasts S1x1x4096x128
  inb_S1x2x1x128_S1x1x1x128_0_1_0_0 : ∀ a, (![0, 1, 0, 0] : Fin 4 → Nat) a + S1x1x1x128.size a ≤ S1x2x1x128.size a
  inb_S1x2x128x4096_S1x1x128x4096_0_1_0_0 : ∀ a, (![0, 1, 0, 0] : Fin 4 → Nat) a + S1x1x128x4096.size a ≤ S1x2x128x4096.size a
  inb_S1x2x4096x128_S1x1x4096x128_0_1_0_0 : ∀ a, (![0, 1, 0, 0] : Fin 4 → Nat) a + S1x1x4096x128.size a ≤ S1x2x4096x128.size a
  inb_S1x2x128x4097_S1x1x128x1_0_1_0_0 : ∀ a, (![0, 1, 0, 0] : Fin 4 → Nat) a + S1x1x128x1.size a ≤ S1x2x128x4097.size a
  inb_S1x2x128x4097_S1x1x128x4096_0_1_0_1 : ∀ a, (![0, 1, 0, 1] : Fin 4 → Nat) a + S1x1x128x4096.size a ≤ S1x2x128x4097.size a
  inb_S1x2x4097x128_S1x1x1x128_0_1_0_0 : ∀ a, (![0, 1, 0, 0] : Fin 4 → Nat) a + S1x1x1x128.size a ≤ S1x2x4097x128.size a
  inb_S1x2x4097x128_S1x1x4096x128_0_1_1_0 : ∀ a, (![0, 1, 1, 0] : Fin 4 → Nat) a + S1x1x4096x128.size a ≤ S1x2x4097x128.size a
  transposes_S8x32x1x128_S8x1x32x128_0_2_1_3 : S8x32x1x128.Transposes [0, 2, 1, 3] S8x1x32x128
  dot_S1x128_S128x4096_S1x4096_1_0_0_1_n_n_wf : DotDims.WF S1x128 S128x4096 S1x4096 [1] [0] [0] [1] [] []
  dot_S1x4096_S4096x128_S1x128_1_0_0_1_n_n_wf : DotDims.WF S1x4096 S4096x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1x128.size a ≤ S8x32x1x128.size a
  hwx0_0 : ∀ i : grid0.Coords, EltTy.bits .f32 = 32 ∨ (Rect.block (s := S8x32x1x128) S1x2x1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1x128.size a ≤ S8x32x1x128.size a
  hwx0_1 : ∀ i : grid0.Coords, EltTy.bits .f32 = 32 ∨ (Rect.block (s := S8x32x1x128) S1x2x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x1x128.size a ≤ S8x32x1x128.size a
  hwx0_2 : ∀ i : grid0.Coords, EltTy.bits .f32 = 32 ∨ (Rect.block (s := S8x32x1x128) S1x2x1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x128x4096.size a ≤ S8x32x128x4096.size a
  hwx0_4 : ∀ i : grid0.Coords, EltTy.bits .f32 = 32 ∨ (Rect.block (s := S8x32x128x4096) S1x2x128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x4096x128.size a ≤ S8x32x4096x128.size a
  hwx0_5 : ∀ i : grid0.Coords, EltTy.bits .f32 = 32 ∨ (Rect.block (s := S8x32x4096x128) S1x2x4096x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x1x128.size a ≤ S8x32x1x128.size a
  hwx0_6 : ∀ i : grid0.Coords, EltTy.bits .f32 = 32 ∨ (Rect.block (s := S8x32x1x128) S1x2x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2x128x4097.size a ≤ S8x32x128x4097.size a
  hwx0_7 : ∀ i : grid0.Coords, EltTy.bits .f32 = 32 ∨ (Rect.block (s := S8x32x128x4097) S1x2x128x4097.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2x4097x128.size a ≤ S8x32x4097x128.size a
  hwx0_8 : ∀ i : grid0.Coords, EltTy.bits .f32 = 32 ∨ (Rect.block (s := S8x32x4097x128) S1x2x4097x128.size (cc0_transform_8 i) (hinb0_8 i)).WholeWords (EltTy.packing .f32)

variable [Facts₀]

def dot_S1x128_S128x4096_S1x4096_1_0_0_1_n_n : DotDims S1x128 S128x4096 S1x4096 where
  lhsContracting := [1]
  rhsContracting := [0]
  lhsNonContracting := [0]
  rhsNonContracting := [1]
  lhsBatch := []
  rhsBatch := []
  wf := dot_S1x128_S128x4096_S1x4096_1_0_0_1_n_n_wf
def dot_S1x4096_S4096x128_S1x128_1_0_0_1_n_n : DotDims S1x4096 S4096x128 S1x128 where
  lhsContracting := [1]
  rhsContracting := [0]
  lhsNonContracting := [0]
  rhsNonContracting := [1]
  lhsBatch := []
  rhsBatch := []
  wf := dot_S1x4096_S4096x128_S1x128_1_0_0_1_n_n_wf

abbrev win0_0 : Pipeline.Window sig grid0 :=
  Pipeline.Window.ofSpec (Memref.whole main_v0) S1x2x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x2x128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x2x4096x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S1x2x1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S1x2x128x4097.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_2) S1x2x4097x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x1x32x128 : Shape := ⟨4, ![8, 1, 32, 128]⟩
abbrev S8x32x128x4096 : Shape := ⟨4, ![8, 32, 128, 4096]⟩
abbrev S8x32x4096x128 : Shape := ⟨4, ![8, 32, 4096, 128]⟩
abbrev S1x64 : Shape := ⟨2, ![1, 64]⟩
abbrev S1x1x1x64 : Shape := ⟨4, ![1, 1, 1, 64]⟩
abbrev S8x1x32x64 : Shape := ⟨4, ![8, 1, 32, 64]⟩
abbrev S8x32x1x128 : Shape := ⟨4, ![8, 32, 1, 128]⟩
abbrev S8x32x128x1 : Shape := ⟨4, ![8, 32, 128, 1]⟩
abbrev S8x32x128x4097 : Shape := ⟨4, ![8, 32, 128, 4097]⟩
abbrev S8x32x4097x128 : Shape := ⟨4, ![8, 32, 4097, 128]⟩
abbrev S8x32x1x4097 : Shape := ⟨4, ![8, 32, 1, 4097]⟩
abbrev S_ : Shape := ⟨0, ![]⟩
abbrev S8x32x1 : Shape := ⟨3, ![8, 32, 1]⟩
abbrev S8x32x1x1 : Shape := ⟨4, ![8, 32, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S8x1x32x128, .f32⟩
  | .hbm, ⟨1, _⟩ => ⟨S8x1x32x128, .f32⟩
  | .hbm, ⟨2, _⟩ => ⟨S8x1x32x128, .f32⟩
  | .hbm, ⟨3, _⟩ => ⟨S8x32x128x4096, .f32⟩
  | .hbm, ⟨4, _⟩ => ⟨S8x32x4096x128, .f32⟩
  | .hbm, ⟨5, _⟩ => ⟨S1x64, .f32⟩
  | .hbm, ⟨6, _⟩ => ⟨S1x1x1x64, .f32⟩
  | .hbm, ⟨7, _⟩ => ⟨S8x1x32x64, .f32⟩
  | .hbm, ⟨8, _⟩ => ⟨S8x1x32x64, .f32⟩
  | .hbm, ⟨9, _⟩ => ⟨S8x1x32x64, .f32⟩
  | .hbm, ⟨10, _⟩ => ⟨S8x1x32x64, .f32⟩
  | .hbm, ⟨11, _⟩ => ⟨S8x1x32x64, .f32⟩
  | .hbm, ⟨12, _⟩ => ⟨S8x1x32x64, .f32⟩
  | .hbm, ⟨13, _⟩ => ⟨S8x1x32x128, .f32⟩
  | .hbm, ⟨14, _⟩ => ⟨S8x1x32x128, .f32⟩
  | .hbm, ⟨15, _⟩ => ⟨S8x32x1x128, .f32⟩
  | .hbm, ⟨16, _⟩ => ⟨S8x32x128x1, .f32⟩
  | .hbm, ⟨17, _⟩ => ⟨S8x32x1x128, .f32⟩
  | .hbm, ⟨18, _⟩ => ⟨S8x32x128x4097, .f32⟩
  | .hbm, ⟨19, _⟩ => ⟨S8x32x4097x128, .f32⟩
  | .hbm, ⟨20, _⟩ => ⟨S8x32x1x4097, .f32⟩
  | .hbm, ⟨21, _⟩ => ⟨S_, .f32⟩
  | .hbm, ⟨22, _⟩ => ⟨S8x32x1x4097, .f32⟩
  | .hbm, ⟨23, _⟩ => ⟨S8x32x1x4097, .f32⟩
  | .hbm, ⟨24, _⟩ => ⟨S_, .f32⟩
  | .hbm, ⟨25, _⟩ => ⟨S8x32x1, .f32⟩
  | .hbm, ⟨26, _⟩ => ⟨S_, .f32⟩
  | .hbm, ⟨27, _⟩ => ⟨S8x32x1, .f32⟩
  | .hbm, ⟨28, _⟩ => ⟨S8x32x1, .f32⟩
  | .hbm, ⟨29, _⟩ => ⟨S8x32x1x1, .f32⟩
  | .hbm, ⟨30, _⟩ => ⟨S8x32x1x4097, .f32⟩
  | .hbm, ⟨31, _⟩ => ⟨S8x32x1x4097, .f32⟩
  | .hbm, ⟨32, _⟩ => ⟨S8x32x1x4097, .f32⟩
  | .hbm, ⟨33, _⟩ => ⟨S_, .f32⟩
  | .hbm, ⟨34, _⟩ => ⟨S8x32x1, .f32⟩
  | .hbm, ⟨35, _⟩ => ⟨S8x32x1x1, .f32⟩
  | .hbm, ⟨36, _⟩ => ⟨S8x32x1x4097, .f32⟩
  | .hbm, ⟨37, _⟩ => ⟨S8x32x1x4097, .f32⟩
  | .hbm, ⟨38, _⟩ => ⟨S8x32x1x128, .f32⟩
  | .hbm, ⟨39, _⟩ => ⟨S8x1x32x128, .f32⟩
  | _, _ => ⟨S8x1x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  shapeCasts_S1x64_S1x1x1x64 : S1x64.ShapeCasts S1x1x1x64
  slices_S8x1x32x128_S8x1x32x64_0_0_0_0 : S8x1x32x128.Slices ![0, 0, 0, 0] S8x1x32x64
  bcast_S1x1x1x64_S8x1x32x64_0_1_2_3 : S1x1x1x64.BroadcastsInDim S8x1x32x64 (![0, 1, 2, 3] : Fin 4 → Fin S8x1x32x64.rank)
  concatenates_S8x1x32x64_S8x1x32x64_S8x1x32x128_d3 : Shape.Concatenates [S8x1x32x64, S8x1x32x64] S8x1x32x128 3
  transposes_S8x1x32x128_S8x32x1x128_0_2_1_3 : S8x1x32x128.Transposes [0, 2, 1, 3] S8x32x1x128
  transposes_S8x1x32x128_S8x32x128x1_0_2_3_1 : S8x1x32x128.Transposes [0, 2, 3, 1] S8x32x128x1
  concatenates_S8x32x128x1_S8x32x128x4096_S8x32x128x4097_d3 : Shape.Concatenates [S8x32x128x1, S8x32x128x4096] S8x32x128x4097 3
  concatenates_S8x32x1x128_S8x32x4096x128_S8x32x4097x128_d2 : Shape.Concatenates [S8x32x1x128, S8x32x4096x128] S8x32x4097x128 2
  bcast_S_S8x32x1x4097 : S_.BroadcastsInDim S8x32x1x4097 (![] : Fin 0 → Fin S8x32x1x4097.rank)
  reducesTo_S8x32x1x4097_S8x32x1_d3 : S8x32x1x4097.ReducesTo [3] S8x32x1
  h_S_ : 0 < S_.numel
  bcast_S_S8x32x1 : S_.BroadcastsInDim S8x32x1 (![] : Fin 0 → Fin S8x32x1.rank)
  bcast_S8x32x1_S8x32x1x1_0_1_2 : S8x32x1.BroadcastsInDim S8x32x1x1 (![0, 1, 2] : Fin 3 → Fin S8x32x1x1.rank)
  bcast_S8x32x1x1_S8x32x1x4097_0_1_2_3 : S8x32x1x1.BroadcastsInDim S8x32x1x4097 (![0, 1, 2, 3] : Fin 4 → Fin S8x32x1x4097.rank)
  transposes_S8x32x1x128_S8x1x32x128_0_2_1_3 : S8x32x1x128.Transposes [0, 2, 1, 3] S8x1x32x128
  dot_S8x32x1x128_S8x32x128x4097_S8x32x1x4097_3_2_2_3_01_01_wf : DotDims.WF S8x32x1x128 S8x32x128x4097 S8x32x1x4097 [3] [2] [2] [3] [0, 1] [0, 1]
  dot_S8x32x1x4097_S8x32x4097x128_S8x32x1x128_3_2_2_3_01_01_wf : DotDims.WF S8x32x1x4097 S8x32x4097x128 S8x32x1x128 [3] [2] [2] [3] [0, 1] [0, 1]

variable [Facts₀]

def dot_S8x32x1x128_S8x32x128x4097_S8x32x1x4097_3_2_2_3_01_01 : DotDims S8x32x1x128 S8x32x128x4097 S8x32x1x4097 where
  lhsContracting := [3]
  rhsContracting := [2]
  lhsNonContracting := [2]
  rhsNonContracting := [3]
  lhsBatch := [0, 1]
  rhsBatch := [0, 1]
  wf := dot_S8x32x1x128_S8x32x128x4097_S8x32x1x4097_3_2_2_3_01_01_wf
def dot_S8x32x1x4097_S8x32x4097x128_S8x32x1x128_3_2_2_3_01_01 : DotDims S8x32x1x4097 S8x32x4097x128 S8x32x1x128 where
  lhsContracting := [3]
  rhsContracting := [2]
  lhsNonContracting := [2]
  rhsNonContracting := [3]
  lhsBatch := [0, 1]
  rhsBatch := [0, 1]
  wf := dot_S8x32x1x4097_S8x32x4097x128_S8x32x1x128_3_2_2_3_01_01_wf

class Facts : Prop extends Facts₀ where

variable [Facts]
-- ==== Proof.Attention.lean ====
/-
  One decoding step of attention with a key/value cache, as functions of the argument arrays on the extended reals.

  For batch `b`, head `h`: the new token's query and key rows are "rotated" — feature `d` of the row is the
  input's feature `d mod 64` times the frequency `d mod 64` — the extended key table `kfull` has the rotated key as
  column `0` and the cached keys as columns `1 … 4096`, the extended value table `vfull` has the new value row as row
  `0` and the cached values as rows `1 … 4096`. The score of position `j` is the query row's inner product with
  column `j` of `kfull`, divided by `128`; the weights are the softmax of the `4097` scores (subtract the maximum,
  exponentiate, divide by the sum); the result row is the weighted sum of the rows of `vfull`.

  The second half is the algebra that lets the position `0` be treated apart from the positions `1 … n`: a maximum,
  a sum and a weighted sum over `Fin (n + 1)` are the term at `0` joined with the same over `Fin n` of the successors.
  None of it needs a finite value: only that `max` and `+` commute and associate on the extended reals.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## Softmax-weighted sums -/

/-- The softmax weights of the scores `s`, applied to the values `v`: with `m` the maximum of the scores (taken from
    the starting value `lo`, joined with `lo` once more), `e j = exp (s j - m)` and `L` their sum, the sum of
    `(e j / L) · v j`. -/
def attend {n : ℕ} (lo : EReal) (s v : Fin n → EReal) : EReal :=
  ∑ j, Ideal.div (Ideal.exp (s j - max lo (Finset.univ.fold max lo s)))
      (∑ j', Ideal.exp (s j' - max lo (Finset.univ.fold max lo s))) * v j

/-- The same with position `0` apart: its score `s0` joins the maximum of the others by one more `max`, its
    exponential is added in front of the others' sum, and its weighted value in front of the others' weighted sum. -/
def attendSplit {n : ℕ} (lo : EReal) (s0 : EReal) (sc : Fin n → EReal) (v0 : EReal) (vc : Fin n → EReal) : EReal :=
  Ideal.div (Ideal.exp (s0 - max s0 (Finset.univ.fold max lo sc)))
      (Ideal.exp (s0 - max s0 (Finset.univ.fold max lo sc)) + ∑ l, Ideal.exp (sc l - max s0 (Finset.univ.fold max lo sc))) * v0
    + ∑ l, Ideal.div (Ideal.exp (sc l - max s0 (Finset.univ.fold max lo sc)))
        (Ideal.exp (s0 - max s0 (Finset.univ.fold max lo sc)) + ∑ l', Ideal.exp (sc l' - max s0 (Finset.univ.fold max lo sc))) * vc l

/-- The maximum over `Fin (n + 1)` from `lo`, joined with `lo`, is the score at `0` joined with the maximum of the
    successors from `lo`: both are the least upper bound of `lo` and all the scores. -/
theorem max_fold_succ {n : ℕ} (lo : EReal) (s : Fin (n + 1) → EReal) :
    max lo (Finset.univ.fold max lo s) = max (s 0) (Finset.univ.fold max lo (fun l : Fin n => s l.succ)) := by
  refine eq_of_forall_ge_iff fun c => ?_
  simp only [max_le_iff, Finset.fold_max_le, Finset.mem_univ, forall_true_left, Fin.forall_fin_succ]
  tauto

/-- The softmax-weighted sum over `Fin (n + 1)` with position `0` apart. -/
theorem attend_succ {n : ℕ} (lo : EReal) (s v : Fin (n + 1) → EReal) :
    attend lo s v = attendSplit lo (s 0) (fun l => s l.succ) (v 0) (fun l => v l.succ) := by
  unfold attend attendSplit
  rw [max_fold_succ lo s]
  simp only [Fin.sum_univ_succ]

/-! ## The constants -/

/-- The word `0x43000000` is the real `128`. -/
theorem ofBits_128 : Ideal.ofBits .f32 0x43000000#32 = ((128 : ℝ) : EReal) := by
  simp [Ideal.ofBits, Ideal.ieee, -EReal.coe_mul]; norm_num

/-- The word `0x3C000000` is the real `1/128` (a power of two: exactly). -/
theorem ofBits_inv128 : Ideal.ofBits .f32 0x3C000000#32 = ((1 / 128 : ℝ) : EReal) := by
  simp [Ideal.ofBits, Ideal.ieee, -EReal.coe_mul]; norm_num

/-- Dividing by the word for `128` is multiplying by the word for `1/128`, on every extended real. -/
theorem div_128 (x : EReal) :
    Ideal.div x (Ideal.ofBits .f32 0x43000000#32) = x * Ideal.ofBits .f32 0x3C000000#32 := by
  rw [ofBits_128, ofBits_inv128, Ideal.div_coe (by norm_num : (128 : ℝ) ≠ 0)]

/-! ## The attention step on the argument arrays -/

/-- The starting value of the maximum: the word for `-∞`. -/
abbrev lo : EReal := Ideal.ofBits .f32 0xFF800000#32

/-- A rotated row: feature `d` of row `(b, h)` of `x` (a `[8, 1, 32, 128]` array) is its feature `d mod 64` times
    the frequency `d mod 64`. -/
def rope (x : FVec Ideal ⟨4, ![8, 1, 32, 128]⟩ .f32) (fc : FVec Ideal ⟨2, ![1, 64]⟩ .f32) (b : Fin 8) (h : Fin 32) (d : Fin 128) : EReal :=
  x (ix4 b (0 : Fin 1) h (⟨d.val % 64, by omega⟩ : Fin 128)) * fc (ix2 (0 : Fin 1) (⟨d.val % 64, Nat.mod_lt _ (by norm_num)⟩ : Fin 64))

/-- The extended key table: column `0` is the rotated new key, column `l + 1` the cached key `l`. -/
def kfull (k : FVec Ideal ⟨4, ![8, 1, 32, 128]⟩ .f32) (fc : FVec Ideal ⟨2, ![1, 64]⟩ .f32) (cK : FVec Ideal ⟨4, ![8, 32, 128, 4096]⟩ .f32)
    (b : Fin 8) (h : Fin 32) (d : Fin 128) : Fin 4097 → EReal :=
  Fin.cases (motive := fun _ => EReal) (rope k fc b h d) (fun l : Fin 4096 => cK (ix4 b h d l))

/-- The extended value table: row `0` is the new value row, row `l + 1` the cached value row `l`. -/
def vfull (v : FVec Ideal ⟨4, ![8, 1, 32, 128]⟩ .f32) (cV : FVec Ideal ⟨4, ![8, 32, 4096, 128]⟩ .f32)
    (b : Fin 8) (h : Fin 32) (d : Fin 128) : Fin 4097 → EReal :=
  Fin.cases (motive := fun _ => EReal) (v (ix4 b (0 : Fin 1) h d)) (fun l : Fin 4096 => cV (ix4 b h l d))

/-- The scores: the rotated query row against each column of the extended key table, divided by `128`. -/
def score (q k : FVec Ideal ⟨4, ![8, 1, 32, 128]⟩ .f32) (fc : FVec Ideal ⟨2, ![1, 64]⟩ .f32) (cK : FVec Ideal ⟨4, ![8, 32, 128, 4096]⟩ .f32)
    (b : Fin 8) (h : Fin 32) : Fin 4097 → EReal :=
  fun j => Ideal.div (∑ d : Fin 128, rope q fc b h d * kfull k fc cK b h d j) (Ideal.ofBits .f32 0x43000000#32)

/-- The first result, `[8, 1, 32, 128]`: the softmax-weighted sum of the extended value table's rows. -/
def resArr (q k v : FVec Ideal ⟨4, ![8, 1, 32, 128]⟩ .f32) (cK : FVec Ideal ⟨4, ![8, 32, 128, 4096]⟩ .f32)
    (cV : FVec Ideal ⟨4, ![8, 32, 4096, 128]⟩ .f32) (fc : FVec Ideal ⟨2, ![1, 64]⟩ .f32) : FVec Ideal ⟨4, ![8, 1, 32, 128]⟩ .f32 :=
  fun i => attend lo (score q k fc cK (i 0) (i 2)) (vfull v cV (i 0) (i 2) (i 3))

/-- The second result, `[8, 32, 128, 4097]`: the extended key table. -/
def keyArr (k : FVec Ideal ⟨4, ![8, 1, 32, 128]⟩ .f32) (cK : FVec Ideal ⟨4, ![8, 32, 128, 4096]⟩ .f32)
    (fc : FVec Ideal ⟨2, ![1, 64]⟩ .f32) : FVec Ideal ⟨4, ![8, 32, 128, 4097]⟩ .f32 :=
  fun i => kfull k fc cK (i 0) (i 1) (i 2) (i 3)

/-- The third result, `[8, 32, 4097, 128]`: the extended value table. -/
def valArr (v : FVec Ideal ⟨4, ![8, 1, 32, 128]⟩ .f32) (cV : FVec Ideal ⟨4, ![8, 32, 4096, 128]⟩ .f32) : FVec Ideal ⟨4, ![8, 32, 4097, 128]⟩ .f32 :=
  fun i => vfull v cV (i 0) (i 1) (i 3) (i 2)

/-- The result row with the new token apart, as the kernel arranges it: the new token's score is the rotated query
    against the rotated key, times `1/128`; the cached scores the rotated query against the cached keys, times `1/128`. -/
theorem resArr_split (q k v : FVec Ideal ⟨4, ![8, 1, 32, 128]⟩ .f32) (cK : FVec Ideal ⟨4, ![8, 32, 128, 4096]⟩ .f32)
    (cV : FVec Ideal ⟨4, ![8, 32, 4096, 128]⟩ .f32) (fc : FVec Ideal ⟨2, ![1, 64]⟩ .f32) (b : Fin 8) (h : Fin 32) (d : Fin 128) :
    resArr q k v cK cV fc (ix4 b (0 : Fin 1) h d)
      = attendSplit lo ((∑ e : Fin 128, rope q fc b h e * rope k fc b h e) * Ideal.ofBits .f32 0x3C000000#32)
          (fun l : Fin 4096 => (∑ e : Fin 128, rope q fc b h e * cK (ix4 b h e l)) * Ideal.ofBits .f32 0x3C000000#32)
          (v (ix4 b (0 : Fin 1) h d)) (fun l : Fin 4096 => cV (ix4 b h l d)) := by
  show attend lo (score q k fc cK b h) (vfull v cV b h d) = _
  rw [attend_succ]
  simp only [score, kfull, vfull, Fin.cases_zero, Fin.cases_succ, div_128]

end Cert.Attn

end
-- ==== Proof.RefSide.lean ====
/-
  The reference program of one decoding step of attention with a key/value cache, read at every index on the
  extended reals, is the specification of `Attention.lean`.

  The road is one small lemma per stage, each at explicit coordinates (batch `b < 8`, head `h < 32`, feature
  `d < 128`, position `k < 4097`):
  * the 64-wide product of the first half of a row with the frequencies, and its join with itself — feature `d` of
    the joined row comes from the left piece at `d` when `d < 64` and from the right piece at `d - 64` otherwise,
    both of which are feature `d mod 64` of the product: the rotated row `rope`;
  * the extended key and value tables — a join of a one-position piece with the cache along the position axis picks
    the new piece exactly at position `0` and the cache at position `l + 1`: `kfull`, `vfull`;
  * the scores (a sum over the 128 features, divided by the word for `128`), their maximum (a fold of `max` over the
    4097 positions from the word for `-∞`, joined with that word once more), the exponentials of the differences,
    their sum (the initial zero word adds nothing), the quotients, and the weighted sum of the value rows: `attend`.
  The three results follow by splitting an index into its coordinates.
-/
import proofs.«180900_j15144054686381_2_alg».proof.Proof.Gen.ReferenceIdeal.Read
import proofs.«180900_j15144054686381_2_alg».proof.Proof.Attention

noncomputable section

namespace Cert.Attn.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

/-! ## The rotated rows -/

/-- The 64-wide product at feature `e`: the input's feature `e` times the frequency `e`. -/
theorem v3_at (x : (⟨S8x1x32x128, .f32⟩ : BufTy).Contents (Elt Ideal)) (fc : (⟨S1x64, .f32⟩ : BufTy).Contents (Elt Ideal))
    (b : Fin 8) (h : Fin 32) (e : Fin 64) :
    val_main_v3 (F := Ideal) x fc (ix4 b (0 : Fin 1) h e)
      = x (ix4 b (0 : Fin 1) h (⟨e.val, by omega⟩ : Fin 128)) * fc (ix2 (0 : Fin 1) e) := by
  rw [val_main_v3_apply, val_main_v1_apply, val_main_v2_apply, val_main_v0_apply]
  have e1 : idx_main_v1 (ix4 b (0 : Fin 1) h e) = ix4 b (0 : Fin 1) h (⟨e.val, by omega⟩ : Fin 128) :=
    funext fun a => Fin.ext (by match a with | ⟨0, _⟩ => rfl | ⟨1, _⟩ => rfl | ⟨2, _⟩ => rfl | ⟨3, _⟩ => rfl)
  have e2 : idx_main_v0 (idx_main_v2 (ix4 b (0 : Fin 1) h e)) = ix2 (0 : Fin 1) e :=
    funext fun a => Fin.ext (by
      match a with
      | ⟨0, _⟩ => rfl
      | ⟨1, _⟩ => show (((0 * 1 + 0) * 1 + 0) * 64 + e.val) % 64 = e.val; omega)
  rw [e1, e2]
  rfl

/-- The rotated row: the 64-wide product joined with itself, so feature `d` is the product's feature `d mod 64`. -/
theorem v7_at (x : (⟨S8x1x32x128, .f32⟩ : BufTy).Contents (Elt Ideal)) (fc : (⟨S1x64, .f32⟩ : BufTy).Contents (Elt Ideal))
    (b : Fin 8) (h : Fin 32) (d : Fin 128) :
    val_main_v7 (F := Ideal) x fc (ix4 b (0 : Fin 1) h d) = rope x fc b h d := by
  unfold val_main_v7 rope
  by_cases hd : d.val < 64
  · refine (concatenate_pair_apply_left (s₁ := S8x1x32x64) (s₂ := S8x1x32x64) _ _ _ _ (ix4 b (0 : Fin 1) h d) rfl
      (ix4 b (0 : Fin 1) h (⟨d.val % 64, Nat.mod_lt _ (by norm_num)⟩ : Fin 64)) (fun a => by
        match a with
        | ⟨0, _⟩ => rfl
        | ⟨1, _⟩ => rfl
        | ⟨2, _⟩ => rfl
        | ⟨3, _⟩ => show d.val % 64 = d.val; omega)).trans ?_
    exact v3_at x fc b h _
  · refine (concatenate_pair_apply_right (s₁ := S8x1x32x64) (s₂ := S8x1x32x64) _ _ _ _ (ix4 b (0 : Fin 1) h d) rfl rfl
      (ix4 b (0 : Fin 1) h (⟨d.val % 64, Nat.mod_lt _ (by norm_num)⟩ : Fin 64)) (fun a ha => by
        match a, ha with
        | ⟨0, _⟩, _ => rfl
        | ⟨1, _⟩, _ => rfl
        | ⟨2, _⟩, _ => rfl
        | ⟨3, _⟩, ha => exact absurd rfl ha) (by
        have := d.isLt
        show d.val % 64 + 64 = d.val; omega)).trans ?_
    exact v3_at x fc b h _

/-- The rotated query row, heads before the unit axis. -/
theorem v9_at (x0 : (⟨S8x1x32x128, .f32⟩ : BufTy).Contents (Elt Ideal)) (x5 : (⟨S1x64, .f32⟩ : BufTy).Contents (Elt Ideal))
    (b : Fin 8) (h : Fin 32) (e : Fin 128) :
    val_main_v9 (F := Ideal) x0 x5 (ix4 b h (0 : Fin 1) e) = rope x0 x5 b h e := by
  rw [val_main_v9_apply]
  have e1 : idx_main_v9 (ix4 b h (0 : Fin 1) e) = ix4 b (0 : Fin 1) h e :=
    funext fun a => Fin.ext (by match a with | ⟨0, _⟩ => rfl | ⟨1, _⟩ => rfl | ⟨2, _⟩ => rfl | ⟨3, _⟩ => rfl)
  rw [e1]
  exact v7_at x0 x5 b h e

/-- The rotated key as a column: heads, features, then the unit axis. -/
theorem v10_at (x1 : (⟨S8x1x32x128, .f32⟩ : BufTy).Contents (Elt Ideal)) (x5 : (⟨S1x64, .f32⟩ : BufTy).Contents (Elt Ideal))
    (b : Fin 8) (h : Fin 32) (d : Fin 128) :
    val_main_v10 (F := Ideal) x1 x5 (ix4 b h d (0 : Fin 1)) = rope x1 x5 b h d := by
  rw [val_main_v10_apply]
  have e1 : idx_main_v10 (ix4 b h d (0 : Fin 1)) = ix4 b (0 : Fin 1) h d :=
    funext fun a => Fin.ext (by match a with | ⟨0, _⟩ => rfl | ⟨1, _⟩ => rfl | ⟨2, _⟩ => rfl | ⟨3, _⟩ => rfl)
  rw [e1]
  exact v7_at x1 x5 b h d

/-! ## The extended tables -/

/-- The extended key table: the rotated key column joined in front of the cached keys along the position axis. -/
theorem v12_at (x1 : (⟨S8x1x32x128, .f32⟩ : BufTy).Contents (Elt Ideal)) (x3 : (⟨S8x32x128x4096, .f32⟩ : BufTy).Contents (Elt Ideal))
    (x5 : (⟨S1x64, .f32⟩ : BufTy).Contents (Elt Ideal)) (b : Fin 8) (h : Fin 32) (d : Fin 128) (j : Fin 4097) :
    val_main_v12 (F := Ideal) x1 x3 x5 (ix4 b h d j) = kfull x1 x5 x3 b h d j := by
  unfold val_main_v12 kfull
  refine Fin.cases ?_ (fun l => ?_) j
  · rw [Fin.cases_zero]
    refine (concatenate_pair_apply_left (s₁ := S8x32x128x1) (s₂ := S8x32x128x4096) _ _ _ _ (ix4 b h d (0 : Fin 4097)) rfl (ix4 b h d (0 : Fin 1)) (fun a => by
      match a with | ⟨0, _⟩ => rfl | ⟨1, _⟩ => rfl | ⟨2, _⟩ => rfl | ⟨3, _⟩ => rfl)).trans ?_
    exact v10_at x1 x5 b h d
  · rw [Fin.cases_succ]
    exact concatenate_pair_apply_right (s₁ := S8x32x128x1) (s₂ := S8x32x128x4096) _ _ _ _ (ix4 b h d l.succ) rfl rfl (ix4 b h d l) (fun a ha => by
      match a, ha with
      | ⟨0, _⟩, _ => rfl
      | ⟨1, _⟩, _ => rfl
      | ⟨2, _⟩, _ => rfl
      | ⟨3, _⟩, ha => exact absurd rfl ha) rfl

/-- The extended value table: the new value row joined in front of the cached rows along the position axis. -/
theorem v13_at (x2 : (⟨S8x1x32x128, .f32⟩ : BufTy).Contents (Elt Ideal)) (x4 : (⟨S8x32x4096x128, .f32⟩ : BufTy).Contents (Elt Ideal))
    (b : Fin 8) (h : Fin 32) (j : Fin 4097) (d : Fin 128) :
    val_main_v13 (F := Ideal) x2 x4 (ix4 b h j d) = vfull x2 x4 b h d j := by
  unfold val_main_v13 vfull
  refine Fin.cases ?_ (fun l => ?_) j
  · rw [Fin.cases_zero]
    refine (concatenate_pair_apply_left (s₁ := S8x32x1x128) (s₂ := S8x32x4096x128) _ _ _ _ (ix4 b h (0 : Fin 4097) d) rfl (ix4 b h (0 : Fin 1) d) (fun a => by
      match a with | ⟨0, _⟩ => rfl | ⟨1, _⟩ => rfl | ⟨2, _⟩ => rfl | ⟨3, _⟩ => rfl)).trans ?_
    rw [val_main_v11_apply]
    exact congrArg x2 (funext fun a => Fin.ext (by
      match a with | ⟨0, _⟩ => rfl | ⟨1, _⟩ => rfl | ⟨2, _⟩ => rfl | ⟨3, _⟩ => rfl))
  · rw [Fin.cases_succ]
    exact concatenate_pair_apply_right (s₁ := S8x32x1x128) (s₂ := S8x32x4096x128) _ _ _ _ (ix4 b h l.succ d) rfl rfl (ix4 b h l d) (fun a ha => by
      match a, ha with
      | ⟨0, _⟩, _ => rfl
      | ⟨1, _⟩, _ => rfl
      | ⟨2, _⟩, ha => exact absurd rfl ha
      | ⟨3, _⟩, _ => rfl) rfl

/-- The second result is the extended key table. -/
theorem key_eq (x1 : (⟨S8x1x32x128, .f32⟩ : BufTy).Contents (Elt Ideal)) (x3 : (⟨S8x32x128x4096, .f32⟩ : BufTy).Contents (Elt Ideal))
    (x5 : (⟨S1x64, .f32⟩ : BufTy).Contents (Elt Ideal)) :
    val_main_v12 (F := Ideal) x1 x3 x5 = keyArr x1 x3 x5 := by
  funext i
  obtain ⟨b, h, d, j, rfl⟩ : ∃ (b : Fin 8) (h : Fin 32) (d : Fin 128) (j : Fin 4097), i = ix4 b h d j :=
    ⟨i 0, i 1, i 2, i 3, eq_ix4 i⟩
  exact v12_at x1 x3 x5 b h d j

/-- The third result is the extended value table. -/
theorem val_eq (x2 : (⟨S8x1x32x128, .f32⟩ : BufTy).Contents (Elt Ideal)) (x4 : (⟨S8x32x4096x128, .f32⟩ : BufTy).Contents (Elt Ideal)) :
    val_main_v13 (F := Ideal) x2 x4 = valArr x2 x4 := by
  funext i
  obtain ⟨b, h, j, d, rfl⟩ : ∃ (b : Fin 8) (h : Fin 32) (j : Fin 4097) (d : Fin 128), i = ix4 b h j d :=
    ⟨i 0, i 1, i 2, i 3, eq_ix4 i⟩
  exact v13_at x2 x4 b h j d

/-! ## Scores, maximum, exponentials, weights -/

/-- The scores: the rotated query row against column `k` of the extended key table, divided by the word for `128`. -/
theorem v16_at (x0 x1 : (⟨S8x1x32x128, .f32⟩ : BufTy).Contents (Elt Ideal)) (x3 : (⟨S8x32x128x4096, .f32⟩ : BufTy).Contents (Elt Ideal))
    (x5 : (⟨S1x64, .f32⟩ : BufTy).Contents (Elt Ideal)) (b : Fin 8) (h : Fin 32) (k : Fin 4097) :
    val_main_v16 (F := Ideal) x0 x1 x3 x5 (ix4 b h (0 : Fin 1) k) = score x0 x1 x5 x3 b h k := by
  rw [val_main_v16_apply, val_main_v14_apply, val_main_v15_apply, val_main_cst_apply]
  simp only [Ideal.hostDivf_def, Ideal.ofBits_def]
  unfold score
  refine congrArg (fun t => Ideal.div t (Ideal.ofBits .f32 0x43000000#32)) (Finset.sum_congr rfl fun e _ => ?_)
  have el : lidx_main_v14 (ix4 b h (0 : Fin 1) k) e = ix4 b h (0 : Fin 1) e :=
    funext fun a => Fin.ext (by match a with | ⟨0, _⟩ => rfl | ⟨1, _⟩ => rfl | ⟨2, _⟩ => rfl | ⟨3, _⟩ => rfl)
  have er : ridx_main_v14 (ix4 b h (0 : Fin 1) k) e = ix4 b h e k :=
    funext fun a => Fin.ext (by match a with | ⟨0, _⟩ => rfl | ⟨1, _⟩ => rfl | ⟨2, _⟩ => rfl | ⟨3, _⟩ => rfl)
  rw [el, er, v9_at x0 x5 b h e, v12_at x1 x3 x5 b h e k]

/-- The maximum of the scores: the fold of `max` over the positions from the word for `-∞`, joined with that word once more. -/
theorem v19_at (x0 x1 : (⟨S8x1x32x128, .f32⟩ : BufTy).Contents (Elt Ideal)) (x3 : (⟨S8x32x128x4096, .f32⟩ : BufTy).Contents (Elt Ideal))
    (x5 : (⟨S1x64, .f32⟩ : BufTy).Contents (Elt Ideal)) (b : Fin 8) (h : Fin 32) :
    val_main_v19 (F := Ideal) x0 x1 x3 x5 (ix3 b h (0 : Fin 1))
      = max lo (Finset.univ.fold max lo (score x0 x1 x5 x3 b h)) := by
  rw [val_main_v19_apply, val_main_v18_apply, val_main_cst_1_apply]
  simp only [Ideal.maximumf_def, Ideal.ofBits_def]
  refine congrArg (max lo) ?_
  unfold val_main_v17
  have hr : S8x32x1x4097.Reduces [3] S8x32x1 := by decide
  refine (Host.reduce_eq_fold_single FloatOps.maximumf _ _ reducesTo_S8x32x1x4097_S8x32x1_d3 hr h_S_ (ix3 b h (0 : Fin 1))).trans ?_
  refine congrArg (fun f => Finset.fold max lo f Finset.univ) (funext fun k => ?_)
  show val_main_v16 (F := Ideal) x0 x1 x3 x5 (hr.lift (ix3 b h (0 : Fin 1)) k) = score x0 x1 x5 x3 b h k
  have e1 : hr.lift (ix3 b h (0 : Fin 1)) k = ix4 b h (0 : Fin 1) k :=
    funext fun a => Fin.ext (by match a with | ⟨0, _⟩ => rfl | ⟨1, _⟩ => rfl | ⟨2, _⟩ => rfl | ⟨3, _⟩ => rfl)
  rw [e1]
  exact v16_at x0 x1 x3 x5 b h k

/-- The exponential of a score less the maximum. -/
theorem v23_at (x0 x1 : (⟨S8x1x32x128, .f32⟩ : BufTy).Contents (Elt Ideal)) (x3 : (⟨S8x32x128x4096, .f32⟩ : BufTy).Contents (Elt Ideal))
    (x5 : (⟨S1x64, .f32⟩ : BufTy).Contents (Elt Ideal)) (b : Fin 8) (h : Fin 32) (k : Fin 4097) :
    val_main_v23 (F := Ideal) x0 x1 x3 x5 (ix4 b h (0 : Fin 1) k)
      = Ideal.exp (score x0 x1 x5 x3 b h k - max lo (Finset.univ.fold max lo (score x0 x1 x5 x3 b h))) := by
  rw [val_main_v23_apply, val_main_v22_apply, val_main_v21_apply, val_main_v20_apply]
  have e1 : idx_main_v20 (idx_main_v21 (ix4 b h (0 : Fin 1) k)) = ix3 b h (0 : Fin 1) :=
    funext fun a => Fin.ext (by match a with | ⟨0, _⟩ => rfl | ⟨1, _⟩ => rfl | ⟨2, _⟩ => rfl)
  rw [e1, v19_at x0 x1 x3 x5 b h, v16_at x0 x1 x3 x5 b h k]
  simp only [Ideal.hostUnary_exp_def, Ideal.subf_def]

/-- The sum of the exponentials: the initial zero word adds nothing. -/
theorem v24_at (x0 x1 : (⟨S8x1x32x128, .f32⟩ : BufTy).Contents (Elt Ideal)) (x3 : (⟨S8x32x128x4096, .f32⟩ : BufTy).Contents (Elt Ideal))
    (x5 : (⟨S1x64, .f32⟩ : BufTy).Contents (Elt Ideal)) (b : Fin 8) (h : Fin 32) :
    val_main_v24 (F := Ideal) x0 x1 x3 x5 (ix3 b h (0 : Fin 1))
      = ∑ k : Fin 4097, Ideal.exp (score x0 x1 x5 x3 b h k - max lo (Finset.univ.fold max lo (score x0 x1 x5 x3 b h))) := by
  rw [val_main_v24_apply, val_main_cst_2_apply]
  simp only [Ideal.ofBits_def, Ideal.ofBits_zero_f32, zero_add]
  refine Finset.sum_congr rfl fun k _ => ?_
  have e1 : idx_main_v24 (ix3 b h (0 : Fin 1)) k = ix4 b h (0 : Fin 1) k :=
    funext fun a => Fin.ext (by match a with | ⟨0, _⟩ => rfl | ⟨1, _⟩ => rfl | ⟨2, _⟩ => rfl | ⟨3, _⟩ => rfl)
  rw [e1, v23_at x0 x1 x3 x5 b h k]

/-- The softmax weight of position `k`. -/
theorem v27_at (x0 x1 : (⟨S8x1x32x128, .f32⟩ : BufTy).Contents (Elt Ideal)) (x3 : (⟨S8x32x128x4096, .f32⟩ : BufTy).Contents (Elt Ideal))
    (x5 : (⟨S1x64, .f32⟩ : BufTy).Contents (Elt Ideal)) (b : Fin 8) (h : Fin 32) (k : Fin 4097) :
    val_main_v27 (F := Ideal) x0 x1 x3 x5 (ix4 b h (0 : Fin 1) k)
      = Ideal.div (Ideal.exp (score x0 x1 x5 x3 b h k - max lo (Finset.univ.fold max lo (score x0 x1 x5 x3 b h))))
          (∑ k' : Fin 4097, Ideal.exp (score x0 x1 x5 x3 b h k' - max lo (Finset.univ.fold max lo (score x0 x1 x5 x3 b h)))) := by
  rw [val_main_v27_apply, val_main_v26_apply, val_main_v25_apply]
  have e1 : idx_main_v25 (idx_main_v26 (ix4 b h (0 : Fin 1) k)) = ix3 b h (0 : Fin 1) :=
    funext fun a => Fin.ext (by match a with | ⟨0, _⟩ => rfl | ⟨1, _⟩ => rfl | ⟨2, _⟩ => rfl)
  rw [e1, v24_at x0 x1 x3 x5 b h, v23_at x0 x1 x3 x5 b h k]
  simp only [Ideal.hostDivf_def]

/-! ## The result row -/

/-- The weighted sum of the extended value table's rows. -/
theorem v28_at (x0 x1 x2 : (⟨S8x1x32x128, .f32⟩ : BufTy).Contents (Elt Ideal)) (x3 : (⟨S8x32x128x4096, .f32⟩ : BufTy).Contents (Elt Ideal))
    (x4 : (⟨S8x32x4096x128, .f32⟩ : BufTy).Contents (Elt Ideal)) (x5 : (⟨S1x64, .f32⟩ : BufTy).Contents (Elt Ideal))
    (b : Fin 8) (h : Fin 32) (d : Fin 128) :
    val_main_v28 (F := Ideal) x0 x1 x2 x3 x4 x5 (ix4 b h (0 : Fin 1) d)
      = attend lo (score x0 x1 x5 x3 b h) (vfull x2 x4 b h d) := by
  rw [val_main_v28_apply]
  unfold attend
  refine Finset.sum_congr rfl fun k _ => ?_
  have el : lidx_main_v28 (ix4 b h (0 : Fin 1) d) k = ix4 b h (0 : Fin 1) k :=
    funext fun a => Fin.ext (by match a with | ⟨0, _⟩ => rfl | ⟨1, _⟩ => rfl | ⟨2, _⟩ => rfl | ⟨3, _⟩ => rfl)
  have er : ridx_main_v28 (ix4 b h (0 : Fin 1) d) k = ix4 b h k d :=
    funext fun a => Fin.ext (by match a with | ⟨0, _⟩ => rfl | ⟨1, _⟩ => rfl | ⟨2, _⟩ => rfl | ⟨3, _⟩ => rfl)
  rw [el, er, v27_at x0 x1 x3 x5 b h k, v13_at x2 x4 b h k d]

/-- The first result is the softmax-weighted sum of the extended value table's rows. -/
theorem res_eq (x0 x1 x2 : (⟨S8x1x32x128, .f32⟩ : BufTy).Contents (Elt Ideal)) (x3 : (⟨S8x32x128x4096, .f32⟩ : BufTy).Contents (Elt Ideal))
    (x4 : (⟨S8x32x4096x128, .f32⟩ : BufTy).Contents (Elt Ideal)) (x5 : (⟨S1x64, .f32⟩ : BufTy).Contents (Elt Ideal)) :
    val_main_v29 (F := Ideal) x0 x1 x2 x3 x4 x5 = resArr x0 x1 x2 x3 x4 x5 := by
  funext i
  obtain ⟨b, o, h, d, rfl⟩ : ∃ (b : Fin 8) (o : Fin 1) (h : Fin 32) (d : Fin 128), i = ix4 b o h d :=
    ⟨i 0, i 1, i 2, i 3, eq_ix4 i⟩
  obtain rfl : o = 0 := Subsingleton.elim _ _
  rw [val_main_v29_apply]
  have e1 : idx_main_v29 (ix4 b (0 : Fin 1) h d) = ix4 b h (0 : Fin 1) d :=
    funext fun a => Fin.ext (by match a with | ⟨0, _⟩ => rfl | ⟨1, _⟩ => rfl | ⟨2, _⟩ => rfl | ⟨3, _⟩ => rfl)
  rw [e1]
  exact v28_at x0 x1 x2 x3 x4 x5 b h d

end Cert.Attn.Ref

end
-- ==== Proof.Head.lean ====
/-
  One head of the attention step over plain coordinate functions: a query row, a key row and a value row of 128
  features, 64 frequencies, a cached key table (feature × position) and a cached value table (position × feature).
  `headOut` is the result row in the arrangement that treats the new token apart from the cached positions; the
  result array of the attention step, read at batch `b` and head `h`, is `headOut` of that head's rows and tables.
-/
import proofs.«180900_j15144054686381_2_alg».proof.Proof.Attention

noncomputable section

namespace Cert.Attn

open Idealize.ShloMosaic Idealize.ShloMosaic.ValueIdx

/-- A rotated row: feature `e` is the row's feature `e mod 64` times frequency `e mod 64`. -/
def rot (row : Fin 128 → EReal) (fc : Fin 64 → EReal) (e : Fin 128) : EReal :=
  row (⟨e.val % 64, by omega⟩ : Fin 128) * fc (⟨e.val % 64, Nat.mod_lt _ (by norm_num)⟩ : Fin 64)

/-- The new token's score: the rotated query against the rotated key, times `1/128`. -/
def scoreNew (qrow krow : Fin 128 → EReal) (fc : Fin 64 → EReal) : EReal :=
  (∑ e : Fin 128, rot qrow fc e * rot krow fc e) * Ideal.ofBits .f32 0x3C000000#32

/-- The cached positions' scores: the rotated query against each cached key, times `1/128`. -/
def scoreCache (qrow : Fin 128 → EReal) (fc : Fin 64 → EReal) (K : Fin 128 → Fin 4096 → EReal) (l : Fin 4096) : EReal :=
  (∑ e : Fin 128, rot qrow fc e * K e l) * Ideal.ofBits .f32 0x3C000000#32

/-- The result row of one head, the new token apart from the cached positions. -/
def headOut (qrow krow vrow : Fin 128 → EReal) (fc : Fin 64 → EReal) (K : Fin 128 → Fin 4096 → EReal)
    (Vc : Fin 4096 → Fin 128 → EReal) (d : Fin 128) : EReal :=
  attendSplit lo (scoreNew qrow krow fc) (scoreCache qrow fc K) (vrow d) (fun l => Vc l d)

/-- The result array at `(b, 0, h, d)` is `headOut` of head `(b, h)`'s rows and tables. -/
theorem resArr_head (q k v : FVec Ideal ⟨4, ![8, 1, 32, 128]⟩ .f32) (cK : FVec Ideal ⟨4, ![8, 32, 128, 4096]⟩ .f32)
    (cV : FVec Ideal ⟨4, ![8, 32, 4096, 128]⟩ .f32) (fc : FVec Ideal ⟨2, ![1, 64]⟩ .f32) (b : Fin 8) (h : Fin 32) (d : Fin 128) :
    resArr q k v cK cV fc (ix4 b (0 : Fin 1) h d)
      = headOut (fun e => q (ix4 b (0 : Fin 1) h e)) (fun e => k (ix4 b (0 : Fin 1) h e)) (fun e => v (ix4 b (0 : Fin 1) h e))
          (fun e => fc (ix2 (0 : Fin 1) e)) (fun e l => cK (ix4 b h e l)) (fun l e => cV (ix4 b h l e)) d := by
  rw [resArr_split]; rfl

/-- The extended key table at `(b, h, d, j)`: the rotated key row at `j = 0`, the cached key `l` at `j = l + 1`. -/
theorem keyArr_apply (k : FVec Ideal ⟨4, ![8, 1, 32, 128]⟩ .f32) (cK : FVec Ideal ⟨4, ![8, 32, 128, 4096]⟩ .f32)
    (fc : FVec Ideal ⟨2, ![1, 64]⟩ .f32) (b : Fin 8) (h : Fin 32) (d : Fin 128) (j : Fin 4097) :
    keyArr k cK fc (ix4 b h d j)
      = Fin.cases (motive := fun _ => EReal) (rot (fun e => k (ix4 b (0 : Fin 1) h e)) (fun e => fc (ix2 (0 : Fin 1) e)) d)
          (fun l : Fin 4096 => cK (ix4 b h d l)) j := rfl

/-- The extended value table at `(b, h, j, d)`: the new value row at `j = 0`, the cached row `l` at `j = l + 1`. -/
theorem valArr_apply (v : FVec Ideal ⟨4, ![8, 1, 32, 128]⟩ .f32) (cV : FVec Ideal ⟨4, ![8, 32, 4096, 128]⟩ .f32)
    (b : Fin 8) (h : Fin 32) (j : Fin 4097) (d : Fin 128) :
    valArr v cV (ix4 b h j d)
      = Fin.cases (motive := fun _ => EReal) (v (ix4 b (0 : Fin 1) h d)) (fun l : Fin 4096 => cV (ix4 b h l d)) j := rfl

end Cert.Attn

end
-- ==== Proof.LibRowLayout.lean ====
/-
  The small vectors of a kernel that works on ONE row at a time, read at explicit coordinates.

  Casts between `[1, 1, a, b]` and `[a, b]` keep the two trailing coordinates; the front slice of a row keeps the
  coordinate; a 64-wide row joined with itself into a 128-wide row reads, at `d`, the row at `d mod 64`; a one-element
  vector cast to `[1, 1]` and broadcast along a row reads its one element everywhere; and, on the extended reals, a
  sum or a maximum along the row of a `[1, n]` vector is the `Fin n`-indexed sum, or fold of `max`, of its entries.
-/
import Idealize.ShloMosaic.Lib.Pipeline.Value
import Idealize.ShloMosaic.Lib.ValueIdx
import Idealize.ShloMosaic.Lib.ValueLayout
import Idealize.ShloMosaic.PureOps.Ideal.Laws

namespace Cert.RowLayout

open Idealize.ShloMosaic Idealize.ShloMosaic.ValueIdx

variable {α : Type}

/-! ## Two leading unit axes dropped or added -/

/-- A `[1, 1, a, b]` array cast to `[a, b]` reads, at `(i, j)`, the operand at `(0, 0, i, j)`. -/
theorem cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem cast_ab_11ab {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]
    simp only [Nat.zero_mul, Nat.zero_add])

/-! ## A row's front slice, and a row joined with itself -/

/-- The slice of a `[1, n]` row from offset `(0, 0)` reads, at `e`, the row at `e`. -/
theorem slice_row_front {n k : ℕ} (x : (⟨2, ![1, n]⟩ : Shape).Idx → α)
    (h : (⟨2, ![1, n]⟩ : Shape).Slices ![0, 0] ⟨2, ![1, k]⟩) (e : Fin k) (he : e.val < n) :
    extractStridedSlice ⟨2, ![1, k]⟩ ![0, 0] x h (ix2 (0 : Fin 1) e) = x (ix2 (0 : Fin 1) (⟨e.val, he⟩ : Fin n)) :=
  extractStridedSlice_apply ![0, 0] x h _ _ fun a => match a with
    | ⟨0, _⟩ => rfl
    | ⟨1, _⟩ => (Nat.zero_add _).symm

/-- A 64-wide row joined with itself along the row reads, at `d`, the row at `d mod 64`: the left copy below 64, the
    right copy from 64 on. -/
theorem concat_row_twice (y : (⟨2, ![1, 64]⟩ : Shape).Idx → α)
    (h : Shape.Concatenates [(⟨2, ![1, 64]⟩ : Shape), ⟨2, ![1, 64]⟩] ⟨2, ![1, 128]⟩ 1) (d : Fin 128) :
    concatenate ⟨2, ![1, 128]⟩ 1 [⟨⟨2, ![1, 64]⟩, y⟩, ⟨⟨2, ![1, 64]⟩, y⟩] h (ix2 (0 : Fin 1) d)
      = y (ix2 (0 : Fin 1) (⟨d.val % 64, Nat.mod_lt _ (by norm_num)⟩ : Fin 64)) := by
  by_cases hd : d.val < 64
  · exact concatenate_pair_apply_left 1 y y h _ rfl _ fun b => match b with
      | ⟨0, _⟩ => rfl
      | ⟨1, _⟩ => by show d.val % 64 = d.val; omega
  · exact concatenate_pair_apply_right 1 y y h _ rfl rfl _
      (fun b hb => match b, hb with
        | ⟨0, _⟩, _ => rfl
        | ⟨1, _⟩, hb => absurd (Fin.ext rfl) hb)
      (by show d.val % 64 + 64 = d.val; omega)

/-! ## One element kept along a row -/

/-- A one-element vector cast to `[1, 1]` reads its element. -/
theorem cast_1_11 (x : (⟨1, ![1]⟩ : Shape).Idx → α) (h : (⟨1, ![1]⟩ : Shape).ShapeCasts ⟨2, ![1, 1]⟩) :
    shapeCast ⟨2, ![1, 1]⟩ x h (ix2 (0 : Fin 1) (0 : Fin 1)) = x (ix1 (0 : Fin 1)) :=
  shapeCast_a_1a_apply x h 0 0

/-- A `[1, 1]` array broadcast to a `[1, n]` row reads its one element at every position. -/
theorem bcast_11_1n {n : ℕ} (x : (⟨2, ![1, 1]⟩ : Shape).Idx → α) (h : (⟨2, ![1, 1]⟩ : Shape).Broadcasts ⟨2, ![1, n]⟩)
    (l : Fin n) : broadcastTo ⟨2, ![1, n]⟩ x h (ix2 (0 : Fin 1) l) = x (ix2 (0 : Fin 1) (0 : Fin 1)) :=
  broadcastTo_apply x h _ _ fun a => match a with
    | ⟨0, _⟩ => (if_pos rfl).symm
    | ⟨1, _⟩ => (if_pos rfl).symm

/-! ## A row's sum and maximum on the extended reals -/

/-- The sum along the row of a `[1, n]` vector is the sum of its `n` entries. -/
theorem sum_row {n : ℕ} {φ : FTy} (src : FVec Ideal ⟨2, ![1, n]⟩ φ) (acc : BitVec φ.bits)
    (h : (⟨2, ![1, n]⟩ : Shape).Reduces [1] ⟨1, ![1]⟩) (hφ : FKind.Formats φ) (hacc : acc = FKind.add.neutral φ hφ) :
    multiReduction .add [1] ⟨1, ![1]⟩ src acc h hφ hacc (ix1 (0 : Fin 1)) = ∑ k : Fin n, src (ix2 (0 : Fin 1) k) :=
  (Ideal.multiReduction_add_single src acc h hφ hacc _).trans
    (Finset.sum_congr rfl fun k _ => congrArg src (funext fun a => match a with
      | ⟨0, _⟩ => Fin.ext rfl
      | ⟨1, _⟩ => Fin.ext rfl))

/-- The maximum along the row of a `[1, n]` vector is the fold of `max`, from the starting word's value, over its
    `n` entries. -/
theorem max_row {n : ℕ} {φ : FTy} (src : FVec Ideal ⟨2, ![1, n]⟩ φ) (acc : BitVec φ.bits)
    (h : (⟨2, ![1, n]⟩ : Shape).Reduces [1] ⟨1, ![1]⟩) (hφ : FKind.Formats φ) (hacc : acc = FKind.maximumf.neutral φ hφ) :
    multiReduction .maximumf [1] ⟨1, ![1]⟩ src acc h hφ hacc (ix1 (0 : Fin 1))
      = (Finset.univ : Finset (Fin n)).fold max (Ideal.ofBits φ acc) (fun k => src (ix2 (0 : Fin 1) k)) :=
  (Ideal.multiReduction_maximumf_single src acc h hφ hacc _).trans
    (congrArg (Finset.fold max (Ideal.ofBits φ acc) · (Finset.univ : Finset (Fin n)))
      (funext fun k => congrArg src (funext fun a => match a with
        | ⟨0, _⟩ => Fin.ext rfl
        | ⟨1, _⟩ => Fin.ext rfl)))

/-- The f32 sum with its zero word spelt as a kernel prints it. -/
theorem sum_row_f32 {n : ℕ} (src : FVec Ideal ⟨2, ![1, n]⟩ .f32) (h : (⟨2, ![1, n]⟩ : Shape).Reduces [1] ⟨1, ![1]⟩)
    (hacc : (0x00000000#32 : BitVec 32) = 0x00000000#32) :
    multiReduction .add [1] ⟨1, ![1]⟩ src 0x00000000#32 h (.inl rfl) hacc (ix1 (0 : Fin 1)) = ∑ k : Fin n, src (ix2 (0 : Fin 1) k) :=
  sum_row src _ h _ hacc

/-- The f32 maximum with its `-∞` word spelt as a kernel prints it. -/
theorem max_row_f32 {n : ℕ} (src : FVec Ideal ⟨2, ![1, n]⟩ .f32) (h : (⟨2, ![1, n]⟩ : Shape).Reduces [1] ⟨1, ![1]⟩)
    (hacc : (0xFF800000#32 : BitVec 32) = 0xFF800000#32) :
    multiReduction .maximumf [1] ⟨1, ![1]⟩ src 0xFF800000#32 h (.inl rfl) hacc (ix1 (0 : Fin 1))
      = (Finset.univ : Finset (Fin n)).fold max (Ideal.ofBits .f32 0xFF800000#32) (fun k => src (ix2 (0 : Fin 1) k)) :=
  max_row src _ h _ hacc

end Cert.RowLayout
-- ==== Proof.HeadValue.lean ====
/-
  The kernel body's pure terms read at an index, on the extended reals.

  The body treats the two heads of its block one after the other. For a head it loads the frequency row, the
  query, key and value rows, the cached key table and the cached value table; rotates the query and the key
  (the front half times the frequencies, joined with itself); scores the new token (a row sum) and the cached
  positions (a row-by-matrix product), each times `1/128`; takes the maximum, exponentiates, sums, divides; and
  stores the weighted new value row plus the weights' product with the cached value table. Read at feature `d`
  the stored row is `headOut` of the loads' coordinate functions — for both heads, whose terms are cut at
  different places but are the same function.

  A change of float format is the identity here, a product into the zero block is the plain sum over the
  contracted coordinate, and `exp`, the quotient and `max` are those of the extended reals.
-/
import proofs.«180900_j15144054686381_2_alg».proof.Proof.Gen.KernelIdeal.Skeleton
import proofs.«180900_j15144054686381_2_alg».proof.Proof.Head
import proofs.«180900_j15144054686381_2_alg».proof.Proof.LibRowLayout
import Idealize.ShloMosaic.Lib.ValueIdx
import Idealize.ShloMosaic.Lib.ValueLayout
import Idealize.ShloMosaic.PureOps.Ideal.Laws

noncomputable section

namespace Cert.KernelIdeal.HeadValue

open Idealize.ShloMosaic Idealize.ShloMosaic.ValueIdx Cert.KernelIdeal Cert.KernelIdeal.Gen Cert.Attn Cert.RowLayout

/-- `exp` of a vector reads `exp` of the entry. -/
theorem exp_apply {s : Shape} {φ : FTy} (a : FVec Ideal s φ) (i : s.Idx) : exp a i = Ideal.exp (a i) := rfl

/-! ## The two products: a row against a matrix -/

theorem lhsK_0 (i : S1x4096.Idx) (q : dot_S1x128_S128x4096_S1x4096_1_0_0_1_n_n.contr.Idx) : (dot_S1x128_S128x4096_S1x4096_1_0_0_1_n_n.lhsIdx i q 0).val = (i 0).val := by
  unfold DotDims.lhsIdx
  rw [dif_neg (show ¬(0 : Fin S1x128.rank) ∈ dot_S1x128_S128x4096_S1x4096_1_0_0_1_n_n.lhsBatch by decide), dif_pos (show (0 : Fin S1x128.rank) ∈ dot_S1x128_S128x4096_S1x4096_1_0_0_1_n_n.lhsNonContracting by decide)]
  rfl
theorem lhsK_1 (i : S1x4096.Idx) (q : dot_S1x128_S128x4096_S1x4096_1_0_0_1_n_n.contr.Idx) : (dot_S1x128_S128x4096_S1x4096_1_0_0_1_n_n.lhsIdx i q 1).val = (q ⟨0, by decide⟩).val :=
  dot_S1x128_S128x4096_S1x4096_1_0_0_1_n_n.lhsIdx_val_of_single rfl i q
theorem rhsK_0 (i : S1x4096.Idx) (q : dot_S1x128_S128x4096_S1x4096_1_0_0_1_n_n.contr.Idx) : (dot_S1x128_S128x4096_S1x4096_1_0_0_1_n_n.rhsIdx i q 0).val = (q ⟨0, by decide⟩).val :=
  dot_S1x128_S128x4096_S1x4096_1_0_0_1_n_n.rhsIdx_val_of_single rfl i q
theorem rhsK_1 (i : S1x4096.Idx) (q : dot_S1x128_S128x4096_S1x4096_1_0_0_1_n_n.contr.Idx) : (dot_S1x128_S128x4096_S1x4096_1_0_0_1_n_n.rhsIdx i q 1).val = (i 1).val := by
  unfold DotDims.rhsIdx
  rw [dif_neg (show ¬(1 : Fin S128x4096.rank) ∈ dot_S1x128_S128x4096_S1x4096_1_0_0_1_n_n.rhsBatch by decide), dif_pos (show (1 : Fin S128x4096.rank) ∈ dot_S1x128_S128x4096_S1x4096_1_0_0_1_n_n.rhsNonContracting by decide)]
  rfl

/-- The query row against the key table, into the zero block: at position `l` the sum over the features. -/
theorem matmul_keys (lhs : FVec Ideal S1x128 .bf16) (rhs : FVec Ideal S128x4096 .bf16) (l : Fin 4096) :
    matmul dot_S1x128_S128x4096_S1x4096_1_0_0_1_n_n none lhs rhs (constant S1x4096 .f32 0x00000000#32) (ix2 (0 : Fin 1) l)
      = ∑ e : Fin 128, lhs (ix2 (0 : Fin 1) e) * rhs (ix2 e l) := by
  simp only [matmul]
  rw [Ideal.matmul_constant_zero_apply, ← Equiv.sum_comp (contrEquiv1 dot_S1x128_S128x4096_S1x4096_1_0_0_1_n_n 128 rfl rfl).symm]
  refine Finset.sum_congr rfl fun k _ => ?_
  have hk := contrEquiv1_symm_val dot_S1x128_S128x4096_S1x4096_1_0_0_1_n_n 128 rfl rfl k
  have el : dot_S1x128_S128x4096_S1x4096_1_0_0_1_n_n.lhsIdx (ix2 (0 : Fin 1) l) ((contrEquiv1 dot_S1x128_S128x4096_S1x4096_1_0_0_1_n_n 128 rfl rfl).symm k) = ix2 (0 : Fin 1) k := funext fun a => Fin.ext (by
    match a with
    | ⟨0, _⟩ => exact lhsK_0 _ _
    | ⟨1, _⟩ => exact (lhsK_1 _ _).trans hk)
  have er : dot_S1x128_S128x4096_S1x4096_1_0_0_1_n_n.rhsIdx (ix2 (0 : Fin 1) l) ((contrEquiv1 dot_S1x128_S128x4096_S1x4096_1_0_0_1_n_n 128 rfl rfl).symm k) = ix2 k l := funext fun a => Fin.ext (by
    match a with
    | ⟨0, _⟩ => exact (rhsK_0 _ _).trans hk
    | ⟨1, _⟩ => exact rhsK_1 _ _)
  rw [el, er]

theorem lhsV_0 (i : S1x128.Idx) (q : dot_S1x4096_S4096x128_S1x128_1_0_0_1_n_n.contr.Idx) : (dot_S1x4096_S4096x128_S1x128_1_0_0_1_n_n.lhsIdx i q 0).val = (i 0).val := by
  unfold DotDims.lhsIdx
  rw [dif_neg (show ¬(0 : Fin S1x4096.rank) ∈ dot_S1x4096_S4096x128_S1x128_1_0_0_1_n_n.lhsBatch by decide), dif_pos (show (0 : Fin S1x4096.rank) ∈ dot_S1x4096_S4096x128_S1x128_1_0_0_1_n_n.lhsNonContracting by decide)]
  rfl
theorem lhsV_1 (i : S1x128.Idx) (q : dot_S1x4096_S4096x128_S1x128_1_0_0_1_n_n.contr.Idx) : (dot_S1x4096_S4096x128_S1x128_1_0_0_1_n_n.lhsIdx i q 1).val = (q ⟨0, by decide⟩).val :=
  dot_S1x4096_S4096x128_S1x128_1_0_0_1_n_n.lhsIdx_val_of_single rfl i q
theorem rhsV_0 (i : S1x128.Idx) (q : dot_S1x4096_S4096x128_S1x128_1_0_0_1_n_n.contr.Idx) : (dot_S1x4096_S4096x128_S1x128_1_0_0_1_n_n.rhsIdx i q 0).val = (q ⟨0, by decide⟩).val :=
  dot_S1x4096_S4096x128_S1x128_1_0_0_1_n_n.rhsIdx_val_of_single rfl i q
theorem rhsV_1 (i : S1x128.Idx) (q : dot_S1x4096_S4096x128_S1x128_1_0_0_1_n_n.contr.Idx) : (dot_S1x4096_S4096x128_S1x128_1_0_0_1_n_n.rhsIdx i q 1).val = (i 1).val := by
  unfold DotDims.rhsIdx
  rw [dif_neg (show ¬(1 : Fin S4096x128.rank) ∈ dot_S1x4096_S4096x128_S1x128_1_0_0_1_n_n.rhsBatch by decide), dif_pos (show (1 : Fin S4096x128.rank) ∈ dot_S1x4096_S4096x128_S1x128_1_0_0_1_n_n.rhsNonContracting by decide)]
  rfl

/-- The weights' row against the value table, into the zero block: at feature `d` the sum over the positions. -/
theorem matmul_values (lhs : FVec Ideal S1x4096 .bf16) (rhs : FVec Ideal S4096x128 .bf16) (d : Fin 128) :
    matmul dot_S1x4096_S4096x128_S1x128_1_0_0_1_n_n none lhs rhs (constant S1x128 .f32 0x00000000#32) (ix2 (0 : Fin 1) d)
      = ∑ l : Fin 4096, lhs (ix2 (0 : Fin 1) l) * rhs (ix2 l d) := by
  simp only [matmul]
  rw [Ideal.matmul_constant_zero_apply, ← Equiv.sum_comp (contrEquiv1 dot_S1x4096_S4096x128_S1x128_1_0_0_1_n_n 4096 rfl rfl).symm]
  refine Finset.sum_congr rfl fun k _ => ?_
  have hk := contrEquiv1_symm_val dot_S1x4096_S4096x128_S1x128_1_0_0_1_n_n 4096 rfl rfl k
  have el : dot_S1x4096_S4096x128_S1x128_1_0_0_1_n_n.lhsIdx (ix2 (0 : Fin 1) d) ((contrEquiv1 dot_S1x4096_S4096x128_S1x128_1_0_0_1_n_n 4096 rfl rfl).symm k) = ix2 (0 : Fin 1) k := funext fun a => Fin.ext (by
    match a with
    | ⟨0, _⟩ => exact lhsV_0 _ _
    | ⟨1, _⟩ => exact (lhsV_1 _ _).trans hk)
  have er : dot_S1x4096_S4096x128_S1x128_1_0_0_1_n_n.rhsIdx (ix2 (0 : Fin 1) d) ((contrEquiv1 dot_S1x4096_S4096x128_S1x128_1_0_0_1_n_n 4096 rfl rfl).symm k) = ix2 k d := funext fun a => Fin.ext (by
    match a with
    | ⟨0, _⟩ => exact (rhsV_0 _ _).trans hk
    | ⟨1, _⟩ => exact rhsV_1 _ _)
  rw [el, er]

/-! ## The loads as coordinate functions -/

/-- A loaded `[1, 1, 1, 128]` row by feature. -/
abbrev rowOf (v : Vec Ideal S1x1x1x128 .f32) : Fin 128 → EReal := fun e => v (ix4 (0 : Fin 1) (0 : Fin 1) (0 : Fin 1) e)
/-- The loaded frequencies. -/
abbrev frqOf (v : Vec Ideal S1x64 .f32) : Fin 64 → EReal := fun e => v (ix2 (0 : Fin 1) e)
/-- A loaded `[1, 1, 128, 4096]` key table, feature × position. -/
abbrev keysOf (v : Vec Ideal S1x1x128x4096 .f32) : Fin 128 → Fin 4096 → EReal := fun e l => v (ix4 (0 : Fin 1) (0 : Fin 1) e l)
/-- A loaded `[1, 1, 4096, 128]` value table, position × feature. -/
abbrev valsOf (v : Vec Ideal S1x1x4096x128 .f32) : Fin 4096 → Fin 128 → EReal := fun l e => v (ix4 (0 : Fin 1) (0 : Fin 1) l e)

/-! ## Head 0 -/

section Head0

variable (v0 : Vec Ideal S1x64 .f32) (v1 v3 v5 : Vec Ideal S1x1x1x128 .f32) (v13 : Vec Ideal S1x1x128x4096 .f32)
  (v15 : Vec Ideal S1x1x4096x128 .f32)

theorem pay6_apply (d : Fin 128) : k0_pay6 (F := Ideal) v5 (ix2 (0 : Fin 1) d) = rowOf v5 d := by
  unfold k0_pay6; exact cast_11ab_ab _ _ _ _

theorem pay7_apply (d : Fin 128) : k0_pay7 (F := Ideal) v0 v1 (ix2 (0 : Fin 1) d) = rot (rowOf v1) (frqOf v0) d := by
  unfold k0_pay7
  try dsimp only
  rw [concat_row_twice, mulf_apply,
    slice_row_front _ _ _ (Nat.lt_of_lt_of_le (Nat.mod_lt _ (by norm_num)) (by norm_num)), cast_11ab_ab]
  rfl

theorem pay8_apply (d : Fin 128) : k0_pay8 (F := Ideal) v0 v3 (ix2 (0 : Fin 1) d) = rot (rowOf v3) (frqOf v0) d := by
  unfold k0_pay8
  try dsimp only
  rw [concat_row_twice, mulf_apply,
    slice_row_front _ _ _ (Nat.lt_of_lt_of_le (Nat.mod_lt _ (by norm_num)) (by norm_num)), cast_11ab_ab]
  rfl

theorem pay9_apply (e : Fin 128) (l : Fin 4096) : k0_pay9 (F := Ideal) v13 (ix2 e l) = keysOf v13 e l := by
  unfold k0_pay9; exact cast_11ab_ab _ _ _ _

theorem pay10_apply (l : Fin 4096) (e : Fin 128) : k0_pay10 (F := Ideal) v15 (ix2 l e) = valsOf v15 l e := by
  unfold k0_pay10; exact cast_11ab_ab _ _ _ _

theorem pay11_apply : k0_pay11 (F := Ideal) v0 v1 v3 (ix2 (0 : Fin 1) (0 : Fin 1)) = scoreNew (rowOf v1) (rowOf v3) (frqOf v0) := by
  unfold k0_pay11
  try dsimp only
  rw [mulf_apply, broadcast_apply, cast_1_11, sum_row_f32]
  simp only [mulf_apply, pay7_apply, pay8_apply]
  rfl

theorem pay12_apply (l : Fin 4096) :
    k0_pay12 (F := Ideal) v0 v1 v13 (ix2 (0 : Fin 1) l) = scoreCache (rowOf v1) (frqOf v0) (keysOf v13) l := by
  unfold k0_pay12
  try dsimp only
  rw [mulf_apply, broadcast_apply, matmul_keys]
  simp only [truncf_apply, pay7_apply, pay9_apply]
  rfl

theorem pay13_apply :
    k0_pay13 (F := Ideal) v0 v1 v3 v13 (ix2 (0 : Fin 1) (0 : Fin 1))
      = max (scoreNew (rowOf v1) (rowOf v3) (frqOf v0)) (Finset.univ.fold max lo (scoreCache (rowOf v1) (frqOf v0) (keysOf v13))) := by
  unfold k0_pay13
  try dsimp only
  rw [maximumf_apply, cast_1_11, max_row_f32, pay11_apply]
  simp only [pay12_apply]

theorem pay14_apply :
    k0_pay14 (F := Ideal) v0 v1 v3 v13 (ix2 (0 : Fin 1) (0 : Fin 1))
      = scoreNew (rowOf v1) (rowOf v3) (frqOf v0)
        - max (scoreNew (rowOf v1) (rowOf v3) (frqOf v0)) (Finset.univ.fold max lo (scoreCache (rowOf v1) (frqOf v0) (keysOf v13))) := by
  unfold k0_pay14
  try dsimp only
  rw [subf_apply, pay11_apply, pay13_apply]

/-- The stored row of head 0 from the values it is handed: the new token's weight times the value row, plus the
    cached weights against the value table. -/
theorem pay15_apply (v6 : FVec Ideal S1x128 .f32) (v16 : FVec Ideal S4096x128 .f32) (v26 : FVec Ideal S1x4096 .f32)
    (v29 v30 : FVec Ideal S1x1 .f32) (d : Fin 128) :
    k0_pay15 (F := Ideal) v6 v16 v26 v29 v30 (ix4 (0 : Fin 1) (0 : Fin 1) (0 : Fin 1) d)
      = Ideal.div (Ideal.exp (v30 (ix2 (0 : Fin 1) (0 : Fin 1))))
            (Ideal.exp (v30 (ix2 (0 : Fin 1) (0 : Fin 1))) + ∑ l : Fin 4096, Ideal.exp (v26 (ix2 (0 : Fin 1) l) - v29 (ix2 (0 : Fin 1) (0 : Fin 1)))) * v6 (ix2 (0 : Fin 1) d)
        + ∑ l : Fin 4096, Ideal.div (Ideal.exp (v26 (ix2 (0 : Fin 1) l) - v29 (ix2 (0 : Fin 1) (0 : Fin 1))))
            (Ideal.exp (v30 (ix2 (0 : Fin 1) (0 : Fin 1))) + ∑ l' : Fin 4096, Ideal.exp (v26 (ix2 (0 : Fin 1) l') - v29 (ix2 (0 : Fin 1) (0 : Fin 1)))) * v16 (ix2 l d) := by
  unfold k0_pay15
  try dsimp only
  rw [cast_ab_11ab, addf_apply, matmul_values, mulf_apply, bcast_11_1n, divf_apply, addf_apply, exp_apply, cast_1_11, sum_row_f32]
  simp only [truncf_apply, divf_apply, exp_apply, subf_apply, bcast_11_1n, addf_apply, cast_1_11]
  rw [sum_row_f32]
  simp only [exp_apply, subf_apply, bcast_11_1n]

/-- Head 0's stored row is `headOut` of its loads. -/
theorem head0 (d : Fin 128) :
    k0_pay15 (F := Ideal) (k0_pay6 v5) (k0_pay10 v15) (k0_pay12 v0 v1 v13) (k0_pay13 v0 v1 v3 v13) (k0_pay14 v0 v1 v3 v13)
        (ix4 (0 : Fin 1) (0 : Fin 1) (0 : Fin 1) d)
      = headOut (rowOf v1) (rowOf v3) (rowOf v5) (frqOf v0) (keysOf v13) (valsOf v15) d := by
  rw [pay15_apply]
  simp only [pay6_apply, pay10_apply, pay12_apply, pay13_apply, pay14_apply]
  rfl

/-- Head 0's key column: the rotated key row, feature by feature. -/
theorem pay16_apply (v12 : FVec Ideal S1x128 .f32) (d : Fin 128) :
    k0_pay16 (F := Ideal) v12 (ix4 (0 : Fin 1) (0 : Fin 1) d (0 : Fin 1)) = v12 (ix2 (0 : Fin 1) d) := by
  unfold k0_pay16
  try dsimp only
  rw [cast_ab_11ab, transpose_ix2_apply]

theorem pay17_apply (v14 : FVec Ideal S128x4096 .f32) (e : Fin 128) (l : Fin 4096) :
    k0_pay17 (F := Ideal) v14 (ix4 (0 : Fin 1) (0 : Fin 1) e l) = v14 (ix2 e l) := by
  unfold k0_pay17; exact cast_ab_11ab _ _ _ _ _ _

theorem pay18_apply (v6 : FVec Ideal S1x128 .f32) (d : Fin 128) :
    k0_pay18 (F := Ideal) v6 (ix4 (0 : Fin 1) (0 : Fin 1) (0 : Fin 1) d) = v6 (ix2 (0 : Fin 1) d) := by
  unfold k0_pay18; exact cast_ab_11ab _ _ _ _ _ _

theorem pay19_apply (v16 : FVec Ideal S4096x128 .f32) (l : Fin 4096) (e : Fin 128) :
    k0_pay19 (F := Ideal) v16 (ix4 (0 : Fin 1) (0 : Fin 1) l e) = v16 (ix2 l e) := by
  unfold k0_pay19; exact cast_ab_11ab _ _ _ _ _ _

end Head0

/-! ## Head 1 -/

section Head1

variable (v0 : Vec Ideal S1x64 .f32) (v63 v65 v67 : Vec Ideal S1x1x1x128 .f32) (v75 : Vec Ideal S1x1x128x4096 .f32)
  (v77 : Vec Ideal S1x1x4096x128 .f32)

theorem pay20_apply (d : Fin 128) : k0_pay20 (F := Ideal) v67 (ix2 (0 : Fin 1) d) = rowOf v67 d := by
  unfold k0_pay20; exact cast_11ab_ab _ _ _ _

theorem pay21_apply (d : Fin 128) : k0_pay21 (F := Ideal) v0 v63 (ix2 (0 : Fin 1) d) = rot (rowOf v63) (frqOf v0) d := by
  unfold k0_pay21
  try dsimp only
  rw [concat_row_twice, mulf_apply,
    slice_row_front _ _ _ (Nat.lt_of_lt_of_le (Nat.mod_lt _ (by norm_num)) (by norm_num)), cast_11ab_ab]
  rfl

theorem pay22_apply (d : Fin 128) : k0_pay22 (F := Ideal) v0 v65 (ix2 (0 : Fin 1) d) = rot (rowOf v65) (frqOf v0) d := by
  unfold k0_pay22
  try dsimp only
  rw [concat_row_twice, mulf_apply,
    slice_row_front _ _ _ (Nat.lt_of_lt_of_le (Nat.mod_lt _ (by norm_num)) (by norm_num)), cast_11ab_ab]
  rfl

theorem pay23_apply (e : Fin 128) (l : Fin 4096) : k0_pay23 (F := Ideal) v75 (ix2 e l) = keysOf v75 e l := by
  unfold k0_pay23; exact cast_11ab_ab _ _ _ _

theorem pay24_apply (l : Fin 4096) (e : Fin 128) : k0_pay24 (F := Ideal) v77 (ix2 l e) = valsOf v77 l e := by
  unfold k0_pay24; exact cast_11ab_ab _ _ _ _

theorem pay25_apply : k0_pay25 (F := Ideal) v0 v63 v65 (ix2 (0 : Fin 1) (0 : Fin 1)) = scoreNew (rowOf v63) (rowOf v65) (frqOf v0) := by
  unfold k0_pay25
  try dsimp only
  rw [mulf_apply, broadcast_apply, cast_1_11, sum_row_f32]
  simp only [mulf_apply, pay21_apply, pay22_apply]
  rfl

theorem pay26_apply (l : Fin 4096) :
    k0_pay26 (F := Ideal) v0 v63 v75 (ix2 (0 : Fin 1) l) = scoreCache (rowOf v63) (frqOf v0) (keysOf v75) l := by
  unfold k0_pay26
  try dsimp only
  rw [mulf_apply, broadcast_apply, matmul_keys]
  simp only [truncf_apply, pay21_apply, pay23_apply]
  rfl

theorem pay27_apply :
    k0_pay27 (F := Ideal) v0 v63 v65 v75 (ix2 (0 : Fin 1) (0 : Fin 1))
      = max (scoreNew (rowOf v63) (rowOf v65) (frqOf v0)) (Finset.univ.fold max lo (scoreCache (rowOf v63) (frqOf v0) (keysOf v75))) := by
  unfold k0_pay27
  try dsimp only
  rw [maximumf_apply, cast_1_11, max_row_f32, pay25_apply]
  simp only [pay26_apply]

theorem pay28_apply :
    k0_pay28 (F := Ideal) v0 v63 v65 v75 (ix2 (0 : Fin 1) (0 : Fin 1))
      = Ideal.exp (scoreNew (rowOf v63) (rowOf v65) (frqOf v0)
        - max (scoreNew (rowOf v63) (rowOf v65) (frqOf v0)) (Finset.univ.fold max lo (scoreCache (rowOf v63) (frqOf v0) (keysOf v75)))) := by
  unfold k0_pay28
  try dsimp only
  rw [exp_apply, subf_apply, pay25_apply, pay27_apply]

theorem pay29_apply (l : Fin 4096) :
    k0_pay29 (F := Ideal) v0 v63 v65 v75 (ix2 (0 : Fin 1) l)
      = Ideal.exp (scoreCache (rowOf v63) (frqOf v0) (keysOf v75) l
        - max (scoreNew (rowOf v63) (rowOf v65) (frqOf v0)) (Finset.univ.fold max lo (scoreCache (rowOf v63) (frqOf v0) (keysOf v75)))) := by
  unfold k0_pay29
  try dsimp only
  rw [exp_apply, subf_apply, bcast_11_1n, pay26_apply, pay27_apply]

theorem pay30_apply :
    k0_pay30 (F := Ideal) v0 v63 v65 v75 (ix1 (0 : Fin 1))
      = ∑ l : Fin 4096, Ideal.exp (scoreCache (rowOf v63) (frqOf v0) (keysOf v75) l
        - max (scoreNew (rowOf v63) (rowOf v65) (frqOf v0)) (Finset.univ.fold max lo (scoreCache (rowOf v63) (frqOf v0) (keysOf v75)))) := by
  unfold k0_pay30
  try dsimp only
  rw [sum_row_f32]
  simp only [pay29_apply]

/-- The stored row of head 1 from the values it is handed. -/
theorem pay1_apply (v68 : FVec Ideal S1x128 .f32) (v78 : FVec Ideal S4096x128 .f32) (v93 : FVec Ideal S1x1 .f32)
    (v96 : FVec Ideal S1x4096 .f32) (v97 : FVec Ideal S1 .f32) (d : Fin 128) :
    k0_pay1 (F := Ideal) v68 v78 v93 v96 v97 (ix4 (0 : Fin 1) (0 : Fin 1) (0 : Fin 1) d)
      = Ideal.div (v93 (ix2 (0 : Fin 1) (0 : Fin 1))) (v93 (ix2 (0 : Fin 1) (0 : Fin 1)) + v97 (ix1 (0 : Fin 1))) * v68 (ix2 (0 : Fin 1) d)
        + ∑ l : Fin 4096, Ideal.div (v96 (ix2 (0 : Fin 1) l)) (v93 (ix2 (0 : Fin 1) (0 : Fin 1)) + v97 (ix1 (0 : Fin 1))) * v78 (ix2 l d) := by
  unfold k0_pay1
  try dsimp only
  rw [cast_ab_11ab, addf_apply, matmul_values, mulf_apply, bcast_11_1n, divf_apply, addf_apply, cast_1_11]
  simp only [truncf_apply, divf_apply, bcast_11_1n, addf_apply, cast_1_11]

/-- Head 1's stored row is `headOut` of its loads. -/
theorem head1 (d : Fin 128) :
    k0_pay1 (F := Ideal) (k0_pay20 v67) (k0_pay24 v77) (k0_pay28 v0 v63 v65 v75) (k0_pay29 v0 v63 v65 v75) (k0_pay30 v0 v63 v65 v75)
        (ix4 (0 : Fin 1) (0 : Fin 1) (0 : Fin 1) d)
      = headOut (rowOf v63) (rowOf v65) (rowOf v67) (frqOf v0) (keysOf v75) (valsOf v77) d := by
  rw [pay1_apply]
  simp only [pay20_apply, pay24_apply, pay28_apply, pay29_apply, pay30_apply]
  rfl

theorem pay2_apply (v74 : FVec Ideal S1x128 .f32) (d : Fin 128) :
    k0_pay2 (F := Ideal) v74 (ix4 (0 : Fin 1) (0 : Fin 1) d (0 : Fin 1)) = v74 (ix2 (0 : Fin 1) d) := by
  unfold k0_pay2
  try dsimp only
  rw [cast_ab_11ab, transpose_ix2_apply]

theorem pay3_apply (v76 : FVec Ideal S128x4096 .f32) (e : Fin 128) (l : Fin 4096) :
    k0_pay3 (F := Ideal) v76 (ix4 (0 : Fin 1) (0 : Fin 1) e l) = v76 (ix2 e l) := by
  unfold k0_pay3; exact cast_ab_11ab _ _ _ _ _ _

theorem pay4_apply (v68 : FVec Ideal S1x128 .f32) (d : Fin 128) :
    k0_pay4 (F := Ideal) v68 (ix4 (0 : Fin 1) (0 : Fin 1) (0 : Fin 1) d) = v68 (ix2 (0 : Fin 1) d) := by
  unfold k0_pay4; exact cast_ab_11ab _ _ _ _ _ _

theorem pay5_apply (v78 : FVec Ideal S4096x128 .f32) (l : Fin 4096) (e : Fin 128) :
    k0_pay5 (F := Ideal) v78 (ix4 (0 : Fin 1) (0 : Fin 1) l e) = v78 (ix2 l e) := by
  unfold k0_pay5; exact cast_ab_11ab _ _ _ _ _ _

end Head1

end Cert.KernelIdeal.HeadValue

end
-- ==== Proof.LibUnitRect.lean ====
/-
  A box of consecutive coordinates inside a rank-4 array: the local index `(a, b, c, d)` of the box sits at the
  array index `(o₀ + a, o₁ + b, o₂ + c, o₃ + d)`, where `o` is the box's corner; so a load through the box reads the
  array there. Stated with the target coordinates as separate variables tied by equations, so that a corner offset
  of `0` or `1` and a successor coordinate can each be given in the form the caller has.
-/
import Idealize.ShloMosaic.Lib.Pipeline.Value
import Idealize.ShloMosaic.Lib.ValueIdx

namespace Cert.UnitRect

open Idealize.ShloMosaic Idealize.ShloMosaic.ValueIdx

variable {Val : EltTy → Type} {e : EltTy}

/-- Where a local index of a rank-4 box sits in the array. -/
theorem emb4 {n0 n1 n2 n3 k0 k1 k2 k3 o0 o1 o2 o3 : ℕ}
    (inb : ∀ a, (![o0, o1, o2, o3] : Fin 4 → ℕ) a + (![k0, k1, k2, k3] : Fin 4 → ℕ) a ≤ (⟨4, ![n0, n1, n2, n3]⟩ : Shape).size a)
    (a : Fin k0) (b : Fin k1) (c : Fin k2) (d : Fin k3) (a' : Fin n0) (b' : Fin n1) (c' : Fin n2) (d' : Fin n3)
    (h0 : a'.val = o0 + a.val) (h1 : b'.val = o1 + b.val) (h2 : c'.val = o2 + c.val) (h3 : d'.val = o3 + d.val) :
    (Rect.unit (s := ⟨4, ![n0, n1, n2, n3]⟩) ![o0, o1, o2, o3] ![k0, k1, k2, k3] inb).emb (ix4 a b c d) = ix4 a' b' c' d' :=
  funext fun ax => Fin.ext (match ax with
    | ⟨0, _⟩ => by show o0 + 1 * a.val = a'.val; omega
    | ⟨1, _⟩ => by show o1 + 1 * b.val = b'.val; omega
    | ⟨2, _⟩ => by show o2 + 1 * c.val = c'.val; omega
    | ⟨3, _⟩ => by show o3 + 1 * d.val = d'.val; omega)

/-- A load through a rank-4 box reads the array at the box's corner plus the local index. -/
theorem ld4 {n0 n1 n2 n3 k0 k1 k2 k3 o0 o1 o2 o3 : ℕ} (X : (⟨4, ![n0, n1, n2, n3]⟩ : Shape).Idx → Val e)
    (inb : ∀ a, (![o0, o1, o2, o3] : Fin 4 → ℕ) a + (![k0, k1, k2, k3] : Fin 4 → ℕ) a ≤ (⟨4, ![n0, n1, n2, n3]⟩ : Shape).size a)
    (a : Fin k0) (b : Fin k1) (c : Fin k2) (d : Fin k3) (a' : Fin n0) (b' : Fin n1) (c' : Fin n2) (d' : Fin n3)
    (h0 : a'.val = o0 + a.val) (h1 : b'.val = o1 + b.val) (h2 : c'.val = o2 + c.val) (h3 : d'.val = o3 + d.val) :
    View.ld X (Rect.unit (s := ⟨4, ![n0, n1, n2, n3]⟩) ![o0, o1, o2, o3] ![k0, k1, k2, k3] inb) (ix4 a b c d) = X (ix4 a' b' c' d') :=
  congrArg X (emb4 inb a b c d a' b' c' d' h0 h1 h2 h3)

/-- A load through the whole of a rank-2 array reads it. -/
theorem ld2_whole {n0 n1 : ℕ} (X : (⟨2, ![n0, n1]⟩ : Shape).Idx → Val e)
    (inb : ∀ a, (![0, 0] : Fin 2 → ℕ) a + (![n0, n1] : Fin 2 → ℕ) a ≤ (⟨2, ![n0, n1]⟩ : Shape).size a) (i : (⟨2, ![n0, n1]⟩ : Shape).Idx) :
    View.ld X (Rect.unit (s := ⟨2, ![n0, n1]⟩) ![0, 0] ![n0, n1] inb) i = X i :=
  congrArg X (funext fun ax => Fin.ext (match ax with
    | ⟨0, _⟩ => by show 0 + 1 * (i 0).val = (i 0).val; omega
    | ⟨1, _⟩ => by show 0 + 1 * (i 1).val = (i 1).val; omega))

end Cert.UnitRect
-- ==== Proof.BodyBlocks.lean ====
/-
  What one grid point's body leaves in its three output blocks, each as ONE function of the point's input blocks.

  A point holds two heads. Its result block `[1, 2, 1, 128]` has, in row `hh`, the attention result of head `hh`
  (`headOut` of that head's rows and tables in the input blocks); its key block `[1, 2, 128, 4097]` has, for head
  `hh` and feature `d`, the rotated new key at position `0` and the cached keys at positions `1 … 4096`; its value
  block `[1, 2, 4097, 128]` the new value row at position `0` and the cached rows after it. The body writes each block
  by several stores — per head, and for the key and value blocks the new entry and the cached part apart —, each
  store's value agreeing with the block's one function on the store's box; so the block, read back, is that function.
-/
import proofs.«180900_j15144054686381_2_alg».proof.Proof.Gen.KernelIdeal.Frame
import proofs.«180900_j15144054686381_2_alg».proof.Proof.HeadValue
import proofs.«180900_j15144054686381_2_alg».proof.Proof.LibUnitRect
import Idealize.ShloMosaic.Lib.Pipeline.Value
import Idealize.ShloMosaic.Lib.Tactic

set_option maxRecDepth 16384

noncomputable section

namespace Cert.KernelIdeal.BodyBlocks

open Idealize.ShloMosaic Idealize.ShloMosaic.TcCoe Idealize.SL.Sem Idealize.ShloMosaic.Tactic Idealize.ShloMosaic.ValueIdx
open Cert.KernelIdeal Cert.KernelIdeal.Gen Cert.KernelIdeal.HeadValue Cert.Attn Cert.UnitRect

/-! ## A head's rows and tables inside the point's blocks -/

/-- Head `hh`'s row of a `[1, 2, 1, 128]` block. -/
abbrev rowIn (x : Vec Ideal S1x2x1x128 .f32) (hh : Fin 2) : Fin 128 → EReal := fun e => x (ix4 (0 : Fin 1) hh (0 : Fin 1) e)
/-- Head `hh`'s key table in a `[1, 2, 128, 4096]` block. -/
abbrev keysIn (x : Vec Ideal S1x2x128x4096 .f32) (hh : Fin 2) : Fin 128 → Fin 4096 → EReal := fun e l => x (ix4 (0 : Fin 1) hh e l)
/-- Head `hh`'s value table in a `[1, 2, 4096, 128]` block. -/
abbrev valsIn (x : Vec Ideal S1x2x4096x128 .f32) (hh : Fin 2) : Fin 4096 → Fin 128 → EReal := fun l e => x (ix4 (0 : Fin 1) hh l e)

/-! ## The body's loads are those rows and tables -/

theorem frq_ld (x : Vec Ideal S1x64 .f32) (inb) :
    frqOf (View.ld x (Rect.unit (s := S1x64) ![0, 0] ![1, 64] inb)) = frqOf x :=
  funext fun e => ld2_whole x inb _

theorem row_ld0 (x : Vec Ideal S1x2x1x128 .f32) (inb) :
    rowOf (View.ld x (Rect.unit (s := S1x2x1x128) ![0, 0, 0, 0] ![1, 1, 1, 128] inb)) = rowIn x 0 :=
  funext fun e => ld4 x inb 0 0 0 e 0 0 0 e rfl rfl rfl (Nat.zero_add _).symm

theorem row_ld1 (x : Vec Ideal S1x2x1x128 .f32) (inb) :
    rowOf (View.ld x (Rect.unit (s := S1x2x1x128) ![0, 1, 0, 0] ![1, 1, 1, 128] inb)) = rowIn x 1 :=
  funext fun e => ld4 x inb 0 0 0 e 0 1 0 e rfl rfl rfl (Nat.zero_add _).symm

theorem keys_ld0 (x : Vec Ideal S1x2x128x4096 .f32) (inb) :
    keysOf (View.ld x (Rect.unit (s := S1x2x128x4096) ![0, 0, 0, 0] ![1, 1, 128, 4096] inb)) = keysIn x 0 :=
  funext fun e => funext fun l => ld4 x inb 0 0 e l 0 0 e l rfl rfl (Nat.zero_add _).symm (Nat.zero_add _).symm

theorem keys_ld1 (x : Vec Ideal S1x2x128x4096 .f32) (inb) :
    keysOf (View.ld x (Rect.unit (s := S1x2x128x4096) ![0, 1, 0, 0] ![1, 1, 128, 4096] inb)) = keysIn x 1 :=
  funext fun e => funext fun l => ld4 x inb 0 0 e l 0 1 e l rfl rfl (Nat.zero_add _).symm (Nat.zero_add _).symm

theorem vals_ld0 (x : Vec Ideal S1x2x4096x128 .f32) (inb) :
    valsOf (View.ld x (Rect.unit (s := S1x2x4096x128) ![0, 0, 0, 0] ![1, 1, 4096, 128] inb)) = valsIn x 0 :=
  funext fun l => funext fun e => ld4 x inb 0 0 l e 0 0 l e rfl rfl (Nat.zero_add _).symm (Nat.zero_add _).symm

theorem vals_ld1 (x : Vec Ideal S1x2x4096x128 .f32) (inb) :
    valsOf (View.ld x (Rect.unit (s := S1x2x4096x128) ![0, 1, 0, 0] ![1, 1, 4096, 128] inb)) = valsIn x 1 :=
  funext fun l => funext fun e => ld4 x inb 0 0 l e 0 1 l e rfl rfl (Nat.zero_add _).symm (Nat.zero_add _).symm

/-! ## The result block -/

/-- The result block: row `hh` is head `hh`'s attention result. -/
def resBlk (x0 x1 x2 : Vec Ideal S1x2x1x128 .f32) (x3 : Vec Ideal S1x64 .f32) (x4 : Vec Ideal S1x2x128x4096 .f32) (x5 : Vec Ideal S1x2x4096x128 .f32) : Vec Ideal S1x2x1x128 .f32 :=
  fun y => headOut (rowIn x0 (y 1)) (rowIn x1 (y 1)) (rowIn x2 (y 1)) (frqOf x3) (keysIn x4 (y 1)) (valsIn x5 (y 1)) (y 3)

/-- The two stores of the result block (one per head) leave `resBlk` of the input blocks. -/
theorem res_out (c : Dev nD) (i : grid0.Coords) (arg2 : Memref sig .tc .vmem S1x2x1x128 .f32) (harg2 : arg2.IsWhole) (arg3 : Memref sig .tc .vmem S1x2x1x128 .f32) (harg3 : arg3.IsWhole) (arg4 : Memref sig .tc .vmem S1x2x1x128 .f32) (harg4 : arg4.IsWhole) (arg5 : Memref sig .tc .vmem S1x64 .f32) (harg5 : arg5.IsWhole) (arg6 : Memref sig .tc .vmem S1x2x128x4096 .f32) (harg6 : arg6.IsWhole) (arg7 : Memref sig .tc .vmem S1x2x4096x128 .f32) (harg7 : arg7.IsWhole) (arg8 : Memref sig .tc .vmem S1x2x1x128 .f32) (harg8 : arg8.IsWhole) (arg9 : Memref sig .tc .vmem S1x2x128x4097 .f32) (harg9 : arg9.IsWhole) (arg10 : Memref sig .tc .vmem S1x2x4097x128 .f32) (harg10 : arg10.IsWhole)
    (x0 x1 x2 : Vec Ideal S1x2x1x128 .f32) (x3 : Vec Ideal S1x64 .f32) (x4 : Vec Ideal S1x2x128x4096 .f32) (x5 : Vec Ideal S1x2x4096x128 .f32) :
    out0_A_6 (F := Ideal) c i arg2 harg2 arg3 harg3 arg4 harg4 arg5 harg5 arg6 harg6 arg7 harg7 arg8 harg8 arg9 harg9 arg10 harg10 x0 x1 x2 x3 x4 x5 = resBlk x0 x1 x2 x3 x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5)]
  funext y
  refine View.canon_apply_of_pieces (resBlk x0 x1 x2 x3 x4 x5) _ ?_ y (cover0_A_6 c i arg2 harg2 arg3 harg3 arg4 harg4 arg5 harg5 arg6 harg6 arg7 harg7 arg8 harg8 arg9 harg9 arg10 harg10 x0 x1 x2 x3 x4 x5 y)
  unfold kernelRun0_A
  dsimp only
  sl_unfold_words
  simp only [View.readAt_eq_ld, harg2.read_unread, harg3.read_unread, harg4.read_unread, harg5.read_unread, harg6.read_unread, harg7.read_unread]
  intro p hp x
  simp only [List.mem_cons, List.not_mem_nil, or_false] at hp
  rcases hp with rfl | rfl
  · obtain ⟨a, b, cc, d, rfl⟩ : ∃ (a b cc : Fin 1) (d : Fin 128), x = ix4 a b cc d :=
      ⟨x 0, x 1, x 2, x 3, eq_ix4 (n0 := 1) (n1 := 1) (n2 := 1) (n3 := 128) x⟩
    obtain rfl : a = 0 := Subsingleton.elim _ _
    obtain rfl : b = 0 := Subsingleton.elim _ _
    obtain rfl : cc = 0 := Subsingleton.elim _ _
    dsimp only
    rw [head1, emb4 _ 0 0 0 d 0 1 0 d rfl rfl rfl (Nat.zero_add _).symm, row_ld1, row_ld1, row_ld1, frq_ld, keys_ld1, vals_ld1]
    rfl
  · obtain ⟨a, b, cc, d, rfl⟩ : ∃ (a b cc : Fin 1) (d : Fin 128), x = ix4 a b cc d :=
      ⟨x 0, x 1, x 2, x 3, eq_ix4 (n0 := 1) (n1 := 1) (n2 := 1) (n3 := 128) x⟩
    obtain rfl : a = 0 := Subsingleton.elim _ _
    obtain rfl : b = 0 := Subsingleton.elim _ _
    obtain rfl : cc = 0 := Subsingleton.elim _ _
    dsimp only
    rw [head0, emb4 _ 0 0 0 d 0 0 0 d rfl rfl rfl (Nat.zero_add _).symm, row_ld0, row_ld0, row_ld0, frq_ld, keys_ld0, vals_ld0]
    rfl

/-! ## The key block -/

/-- The key block's entry for head `hh`, feature `d`, position `j`: the rotated new key at `j = 0`, the cached key
    `l` at `j = l + 1`. -/
def keyAt (x1 : Vec Ideal S1x2x1x128 .f32) (x3 : Vec Ideal S1x64 .f32) (x4 : Vec Ideal S1x2x128x4096 .f32)
    (hh : Fin 2) (d : Fin 128) (j : Fin 4097) : EReal :=
  Fin.cases (motive := fun _ => EReal) (rot (rowIn x1 hh) (frqOf x3) d) (fun l : Fin 4096 => keysIn x4 hh d l) j

/-- The key block. -/
def keyBlk (x1 : Vec Ideal S1x2x1x128 .f32) (x3 : Vec Ideal S1x64 .f32) (x4 : Vec Ideal S1x2x128x4096 .f32) :
    Vec Ideal S1x2x128x4097 .f32 := fun y => keyAt x1 x3 x4 (y 1) (y 2) (y 3)

/-- The four stores of the key block (per head: the new key's column, then the cached table one position on)
    leave `keyBlk` of the input blocks. -/
theorem key_out (c : Dev nD) (i : grid0.Coords) (arg2 : Memref sig .tc .vmem S1x2x1x128 .f32) (harg2 : arg2.IsWhole) (arg3 : Memref sig .tc .vmem S1x2x1x128 .f32) (harg3 : arg3.IsWhole) (arg4 : Memref sig .tc .vmem S1x2x1x128 .f32) (harg4 : arg4.IsWhole) (arg5 : Memref sig .tc .vmem S1x64 .f32) (harg5 : arg5.IsWhole) (arg6 : Memref sig .tc .vmem S1x2x128x4096 .f32) (harg6 : arg6.IsWhole) (arg7 : Memref sig .tc .vmem S1x2x4096x128 .f32) (harg7 : arg7.IsWhole) (arg8 : Memref sig .tc .vmem S1x2x1x128 .f32) (harg8 : arg8.IsWhole) (arg9 : Memref sig .tc .vmem S1x2x128x4097 .f32) (harg9 : arg9.IsWhole) (arg10 : Memref sig .tc .vmem S1x2x4097x128 .f32) (harg10 : arg10.IsWhole)
    (x0 x1 x2 : Vec Ideal S1x2x1x128 .f32) (x3 : Vec Ideal S1x64 .f32) (x4 : Vec Ideal S1x2x128x4096 .f32) (x5 : Vec Ideal S1x2x4096x128 .f32) :
    out0_A_7 (F := Ideal) c i arg2 harg2 arg3 harg3 arg4 harg4 arg5 harg5 arg6 harg6 arg7 harg7 arg8 harg8 arg9 harg9 arg10 harg10 x0 x1 x2 x3 x4 x5 = keyBlk x1 x3 x4 := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5)]
  funext y
  refine View.canon_apply_of_pieces (keyBlk x1 x3 x4) _ ?_ y (cover0_A_7 c i arg2 harg2 arg3 harg3 arg4 harg4 arg5 harg5 arg6 harg6 arg7 harg7 arg8 harg8 arg9 harg9 arg10 harg10 x0 x1 x2 x3 x4 x5 y)
  unfold kernelRun0_A
  dsimp only
  sl_unfold_words
  simp only [View.readAt_eq_ld, harg2.read_unread, harg3.read_unread, harg4.read_unread, harg5.read_unread, harg6.read_unread, harg7.read_unread]
  intro p hp x
  simp only [List.mem_cons, List.not_mem_nil, or_false] at hp
  rcases hp with rfl | rfl | rfl | rfl
  · obtain ⟨a, b, e, l, rfl⟩ : ∃ (a : Fin 1) (b : Fin 1) (e : Fin 128) (l : Fin 4096), x = ix4 a b e l :=
      ⟨x 0, x 1, x 2, x 3, eq_ix4 (n0 := 1) (n1 := 1) (n2 := 128) (n3 := 4096) x⟩
    obtain rfl : a = 0 := Subsingleton.elim _ _
    obtain rfl : b = 0 := Subsingleton.elim _ _
    dsimp only
    rw [pay3_apply, pay23_apply, keys_ld1,
      emb4 _ 0 0 e l 0 1 e l.succ rfl rfl (Nat.zero_add _).symm ((Fin.val_succ l).trans (Nat.add_comm _ _))]
    show keysIn x4 1 e l = keyAt x1 x3 x4 1 e l.succ
    unfold keyAt
    rw [Fin.cases_succ]
  · obtain ⟨a, b, d, cc, rfl⟩ : ∃ (a : Fin 1) (b : Fin 1) (d : Fin 128) (cc : Fin 1), x = ix4 a b d cc :=
      ⟨x 0, x 1, x 2, x 3, eq_ix4 (n0 := 1) (n1 := 1) (n2 := 128) (n3 := 1) x⟩
    obtain rfl : a = 0 := Subsingleton.elim _ _
    obtain rfl : b = 0 := Subsingleton.elim _ _
    obtain rfl : cc = 0 := Subsingleton.elim _ _
    dsimp only
    rw [pay2_apply, pay22_apply, row_ld1, frq_ld,
      emb4 _ 0 0 d 0 0 1 d 0 rfl rfl (Nat.zero_add _).symm rfl]
    rfl
  · obtain ⟨a, b, e, l, rfl⟩ : ∃ (a : Fin 1) (b : Fin 1) (e : Fin 128) (l : Fin 4096), x = ix4 a b e l :=
      ⟨x 0, x 1, x 2, x 3, eq_ix4 (n0 := 1) (n1 := 1) (n2 := 128) (n3 := 4096) x⟩
    obtain rfl : a = 0 := Subsingleton.elim _ _
    obtain rfl : b = 0 := Subsingleton.elim _ _
    dsimp only
    rw [pay17_apply, pay9_apply, keys_ld0,
      emb4 _ 0 0 e l 0 0 e l.succ rfl rfl (Nat.zero_add _).symm ((Fin.val_succ l).trans (Nat.add_comm _ _))]
    show keysIn x4 0 e l = keyAt x1 x3 x4 0 e l.succ
    unfold keyAt
    rw [Fin.cases_succ]
  · obtain ⟨a, b, d, cc, rfl⟩ : ∃ (a : Fin 1) (b : Fin 1) (d : Fin 128) (cc : Fin 1), x = ix4 a b d cc :=
      ⟨x 0, x 1, x 2, x 3, eq_ix4 (n0 := 1) (n1 := 1) (n2 := 128) (n3 := 1) x⟩
    obtain rfl : a = 0 := Subsingleton.elim _ _
    obtain rfl : b = 0 := Subsingleton.elim _ _
    obtain rfl : cc = 0 := Subsingleton.elim _ _
    dsimp only
    rw [pay16_apply, pay8_apply, row_ld0, frq_ld,
      emb4 _ 0 0 d 0 0 0 d 0 rfl rfl (Nat.zero_add _).symm rfl]
    rfl

/-! ## The value block -/

/-- The value block's entry for head `hh`, position `j`, feature `d`: the new value row at `j = 0`, the cached row
    `l` at `j = l + 1`. -/
def valAt (x2 : Vec Ideal S1x2x1x128 .f32) (x5 : Vec Ideal S1x2x4096x128 .f32)
    (hh : Fin 2) (j : Fin 4097) (d : Fin 128) : EReal :=
  Fin.cases (motive := fun _ => EReal) (rowIn x2 hh d) (fun l : Fin 4096 => valsIn x5 hh l d) j

/-- The value block. -/
def valBlk (x2 : Vec Ideal S1x2x1x128 .f32) (x5 : Vec Ideal S1x2x4096x128 .f32) :
    Vec Ideal S1x2x4097x128 .f32 := fun y => valAt x2 x5 (y 1) (y 2) (y 3)

/-- The four stores of the value block (per head: the new value row, then the cached table one position on) leave
    `valBlk` of the input blocks. -/
theorem val_out (c : Dev nD) (i : grid0.Coords) (arg2 : Memref sig .tc .vmem S1x2x1x128 .f32) (harg2 : arg2.IsWhole) (arg3 : Memref sig .tc .vmem S1x2x1x128 .f32) (harg3 : arg3.IsWhole) (arg4 : Memref sig .tc .vmem S1x2x1x128 .f32) (harg4 : arg4.IsWhole) (arg5 : Memref sig .tc .vmem S1x64 .f32) (harg5 : arg5.IsWhole) (arg6 : Memref sig .tc .vmem S1x2x128x4096 .f32) (harg6 : arg6.IsWhole) (arg7 : Memref sig .tc .vmem S1x2x4096x128 .f32) (harg7 : arg7.IsWhole) (arg8 : Memref sig .tc .vmem S1x2x1x128 .f32) (harg8 : arg8.IsWhole) (arg9 : Memref sig .tc .vmem S1x2x128x4097 .f32) (harg9 : arg9.IsWhole) (arg10 : Memref sig .tc .vmem S1x2x4097x128 .f32) (harg10 : arg10.IsWhole)
    (x0 x1 x2 : Vec Ideal S1x2x1x128 .f32) (x3 : Vec Ideal S1x64 .f32) (x4 : Vec Ideal S1x2x128x4096 .f32) (x5 : Vec Ideal S1x2x4096x128 .f32) :
    out0_A_8 (F := Ideal) c i arg2 harg2 arg3 harg3 arg4 harg4 arg5 harg5 arg6 harg6 arg7 harg7 arg8 harg8 arg9 harg9 arg10 harg10 x0 x1 x2 x3 x4 x5 = valBlk x2 x5 := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5)]
  funext y
  refine View.canon_apply_of_pieces (valBlk x2 x5) _ ?_ y (cover0_A_8 c i arg2 harg2 arg3 harg3 arg4 harg4 arg5 harg5 arg6 harg6 arg7 harg7 arg8 harg8 arg9 harg9 arg10 harg10 x0 x1 x2 x3 x4 x5 y)
  unfold kernelRun0_A
  dsimp only
  sl_unfold_words
  simp only [View.readAt_eq_ld, harg2.read_unread, harg3.read_unread, harg4.read_unread, harg5.read_unread, harg6.read_unread, harg7.read_unread]
  intro p hp x
  simp only [List.mem_cons, List.not_mem_nil, or_false] at hp
  rcases hp with rfl | rfl | rfl | rfl
  · obtain ⟨a, b, l, e, rfl⟩ : ∃ (a : Fin 1) (b : Fin 1) (l : Fin 4096) (e : Fin 128), x = ix4 a b l e :=
      ⟨x 0, x 1, x 2, x 3, eq_ix4 (n0 := 1) (n1 := 1) (n2 := 4096) (n3 := 128) x⟩
    obtain rfl : a = 0 := Subsingleton.elim _ _
    obtain rfl : b = 0 := Subsingleton.elim _ _
    dsimp only
    rw [pay5_apply, pay24_apply, vals_ld1,
      emb4 _ 0 0 l e 0 1 l.succ e rfl rfl ((Fin.val_succ l).trans (Nat.add_comm _ _)) (Nat.zero_add _).symm]
    show valsIn x5 1 l e = valAt x2 x5 1 l.succ e
    unfold valAt
    rw [Fin.cases_succ]
  · obtain ⟨a, b, cc, d, rfl⟩ : ∃ (a : Fin 1) (b : Fin 1) (cc : Fin 1) (d : Fin 128), x = ix4 a b cc d :=
      ⟨x 0, x 1, x 2, x 3, eq_ix4 (n0 := 1) (n1 := 1) (n2 := 1) (n3 := 128) x⟩
    obtain rfl : a = 0 := Subsingleton.elim _ _
    obtain rfl : b = 0 := Subsingleton.elim _ _
    obtain rfl : cc = 0 := Subsingleton.elim _ _
    dsimp only
    rw [pay4_apply, pay20_apply, row_ld1,
      emb4 _ 0 0 0 d 0 1 0 d rfl rfl rfl (Nat.zero_add _).symm]
    rfl
  · obtain ⟨a, b, l, e, rfl⟩ : ∃ (a : Fin 1) (b : Fin 1) (l : Fin 4096) (e : Fin 128), x = ix4 a b l e :=
      ⟨x 0, x 1, x 2, x 3, eq_ix4 (n0 := 1) (n1 := 1) (n2 := 4096) (n3 := 128) x⟩
    obtain rfl : a = 0 := Subsingleton.elim _ _
    obtain rfl : b = 0 := Subsingleton.elim _ _
    dsimp only
    rw [pay19_apply, pay10_apply, vals_ld0,
      emb4 _ 0 0 l e 0 0 l.succ e rfl rfl ((Fin.val_succ l).trans (Nat.add_comm _ _)) (Nat.zero_add _).symm]
    show valsIn x5 0 l e = valAt x2 x5 0 l.succ e
    unfold valAt
    rw [Fin.cases_succ]
  · obtain ⟨a, b, cc, d, rfl⟩ : ∃ (a : Fin 1) (b : Fin 1) (cc : Fin 1) (d : Fin 128), x = ix4 a b cc d :=
      ⟨x 0, x 1, x 2, x 3, eq_ix4 (n0 := 1) (n1 := 1) (n2 := 1) (n3 := 128) x⟩
    obtain rfl : a = 0 := Subsingleton.elim _ _
    obtain rfl : b = 0 := Subsingleton.elim _ _
    obtain rfl : cc = 0 := Subsingleton.elim _ _
    dsimp only
    rw [pay18_apply, pay6_apply, row_ld0,
      emb4 _ 0 0 0 d 0 0 0 d rfl rfl rfl (Nat.zero_add _).symm]
    rfl

end Cert.KernelIdeal.BodyBlocks

end
-- ==== Proof.Blocks.lean ====
/-
  The grid-point bookkeeping of the attention step's kernel: which batch and which two heads each of the 128 grid
  points works on, which entry of the arrays each entry of a point's input and output blocks is, and that the
  output blocks of all the points together cover the three output arrays.

  The grid is `8 × 16`. Point `t` has a batch `bOf t < 8` and a pair `gOf t < 16`; its blocks hold the two heads
  `2 * gOf t` and `2 * gOf t + 1` of that batch (`hd (gOf t) hh`, `hh < 2`): a block's entry `(0, hh, x, y)` is the
  array's entry `(bOf t, hd (gOf t) hh, x, y)`, because a block's coordinate on an axis is the block index times the
  block size plus the coordinate inside the block, and the block index is `(batch, pair, 0, 0)`. The frequencies'
  single block is the whole `[1, 64]` array. The query, key and value arrays the region reads are the arguments with
  the unit axis and the head axis exchanged. Array index `i` of an output lies in the block of the point with batch
  `i 0` and pair `(i 1) / 2`.
-/
import proofs.«180900_j15144054686381_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic Idealize.ShloMosaic.ValueIdx

variable {F : FTy → Type} [FloatOps F] (m : (ℓ : Loc nD τ sig) → Buf (Elt F) ℓ)

/-! ## The grid's points

The grid is `8 × 16`: point `t` works on batch `bOf t` and on the pair of heads `2 * gOf t`, `2 * gOf t + 1`. Every window
but the frequencies' has block index `(batch, pair, 0, 0)` with a block of one batch and two heads; the frequencies' one
block is the whole `[1, 64]` array. -/

/-- The result window's block index at every point: a batch below 8, a pair below 16, and 0 on the last two axes. -/
theorem idx6 : ∀ t : Fin cfg0.N, win0_6.index t (0 : Fin 4) < 8 ∧ win0_6.index t (1 : Fin 4) < 16
    ∧ win0_6.index t (2 : Fin 4) = 0 ∧ win0_6.index t (3 : Fin 4) = 0 :=
  (by decide +kernel : ∀ t : Fin grid0.N, _)

/-- Window 0 moves with the result window: the same batch and pair, 0 on the last two axes. -/
theorem idx0 : ∀ t : Fin cfg0.N, win0_0.index t (0 : Fin 4) = win0_6.index t (0 : Fin 4)
    ∧ win0_0.index t (1 : Fin 4) = win0_6.index t (1 : Fin 4)
    ∧ win0_0.index t (2 : Fin 4) = 0 ∧ win0_0.index t (3 : Fin 4) = 0 :=
  (by decide +kernel : ∀ t : Fin grid0.N, _)

/-- Window 1 moves with the result window: the same batch and pair, 0 on the last two axes. -/
theorem idx1 : ∀ t : Fin cfg0.N, win0_1.index t (0 : Fin 4) = win0_6.index t (0 : Fin 4)
    ∧ win0_1.index t (1 : Fin 4) = win0_6.index t (1 : Fin 4)
    ∧ win0_1.index t (2 : Fin 4) = 0 ∧ win0_1.index t (3 : Fin 4) = 0 :=
  (by decide +kernel : ∀ t : Fin grid0.N, _)

/-- Window 2 moves with the result window: the same batch and pair, 0 on the last two axes. -/
theorem idx2 : ∀ t : Fin cfg0.N, win0_2.index t (0 : Fin 4) = win0_6.index t (0 : Fin 4)
    ∧ win0_2.index t (1 : Fin 4) = win0_6.index t (1 : Fin 4)
    ∧ win0_2.index t (2 : Fin 4) = 0 ∧ win0_2.index t (3 : Fin 4) = 0 :=
  (by decide +kernel : ∀ t : Fin grid0.N, _)

/-- Window 4 moves with the result window: the same batch and pair, 0 on the last two axes. -/
theorem idx4 : ∀ t : Fin cfg0.N, win0_4.index t (0 : Fin 4) = win0_6.index t (0 : Fin 4)
    ∧ win0_4.index t (1 : Fin 4) = win0_6.index t (1 : Fin 4)
    ∧ win0_4.index t (2 : Fin 4) = 0 ∧ win0_4.index t (3 : Fin 4) = 0 :=
  (by decide +kernel : ∀ t : Fin grid0.N, _)

/-- Window 5 moves with the result window: the same batch and pair, 0 on the last two axes. -/
theorem idx5 : ∀ t : Fin cfg0.N, win0_5.index t (0 : Fin 4) = win0_6.index t (0 : Fin 4)
    ∧ win0_5.index t (1 : Fin 4) = win0_6.index t (1 : Fin 4)
    ∧ win0_5.index t (2 : Fin 4) = 0 ∧ win0_5.index t (3 : Fin 4) = 0 :=
  (by decide +kernel : ∀ t : Fin grid0.N, _)

/-- Window 7 moves with the result window: the same batch and pair, 0 on the last two axes. -/
theorem idx7 : ∀ t : Fin cfg0.N, win0_7.index t (0 : Fin 4) = win0_6.index t (0 : Fin 4)
    ∧ win0_7.index t (1 : Fin 4) = win0_6.index t (1 : Fin 4)
    ∧ win0_7.index t (2 : Fin 4) = 0 ∧ win0_7.index t (3 : Fin 4) = 0 :=
  (by decide +kernel : ∀ t : Fin grid0.N, _)

/-- Window 8 moves with the result window: the same batch and pair, 0 on the last two axes. -/
theorem idx8 : ∀ t : Fin cfg0.N, win0_8.index t (0 : Fin 4) = win0_6.index t (0 : Fin 4)
    ∧ win0_8.index t (1 : Fin 4) = win0_6.index t (1 : Fin 4)
    ∧ win0_8.index t (2 : Fin 4) = 0 ∧ win0_8.index t (3 : Fin 4) = 0 :=
  (by decide +kernel : ∀ t : Fin grid0.N, _)

/-- The frequencies' window stays at block `(0, 0)`. -/
theorem idx3 : ∀ t : Fin cfg0.N, win0_3.index t (0 : Fin 2) = 0 ∧ win0_3.index t (1 : Fin 2) = 0 :=
  (by decide +kernel : ∀ t : Fin grid0.N, _)

/-- Every batch and pair is some point's. -/
theorem idx_onto : ∀ (b : Fin 8) (g : Fin 16), ∃ t : Fin cfg0.N,
    win0_6.index t (0 : Fin 4) = b.val ∧ win0_6.index t (1 : Fin 4) = g.val :=
  (by decide +kernel : ∀ (b : Fin 8) (g : Fin 16), ∃ t : Fin grid0.N,
    win0_6.index t (0 : Fin 4) = b.val ∧ win0_6.index t (1 : Fin 4) = g.val)

/-- The batch of point `t`. -/
def bOf (t : Fin cfg0.N) : Fin 8 := ⟨win0_6.index t (0 : Fin 4), (idx6 t).1⟩
/-- The pair of heads of point `t`. -/
def gOf (t : Fin cfg0.N) : Fin 16 := ⟨win0_6.index t (1 : Fin 4), (idx6 t).2.1⟩
/-- Head `hh` (0 or 1) of pair `g`. -/
def hd (g : Fin 16) (hh : Fin 2) : Fin 32 := ⟨2 * g.val + hh.val, by omega⟩

theorem point_onto (b : Fin 8) (g : Fin 16) : ∃ t : Fin cfg0.N, bOf t = b ∧ gOf t = g := by
  obtain ⟨t, h0, h1⟩ := idx_onto b g
  exact ⟨t, Fin.ext h0, Fin.ext h1⟩

/-! ## The arrays the region finds

The three `[8, 32, 1, 128]` arrays the region reads are the query, key and value arguments with the unit axis and the
head axis exchanged. -/

theorem V_main_v0 (c : Dev nD) : (V m c main_v0 : S8x32x1x128.Idx → Elt F .f32)
    = transpose S8x32x1x128 [0, 2, 1, 3] (m ((c : Thread nD τ).loc main_arg0)) transposes_S8x1x32x128_S8x32x1x128_0_2_1_3 := by
  show StableHlo.after hostOps0 (fun b => m (c, b)) (Proc.devRef .tc main_v0) = _
  after_results

/-- Entry `(b, h, 0, e)` of the region's query array is entry `(b, 0, h, e)` of the argument. -/
theorem V_q (c : Dev nD) (b : Fin 8) (h : Fin 32) (e : Fin 128) :
    V m c main_v0 (ix4 b h (0 : Fin 1) e) = m ((c : Thread nD τ).loc main_arg0) (ix4 b (0 : Fin 1) h e) := by
  refine (congrFun (V_main_v0 m c) (ix4 b h (0 : Fin 1) e)).trans ?_
  exact transpose_apply _ _ _ (ix4 b h (0 : Fin 1) e) (ix4 b (0 : Fin 1) h e) (fun a => by
    match a with | ⟨0, _⟩ => rfl | ⟨1, _⟩ => rfl | ⟨2, _⟩ => rfl | ⟨3, _⟩ => rfl)

theorem V_main_v1 (c : Dev nD) : (V m c main_v1 : S8x32x1x128.Idx → Elt F .f32)
    = transpose S8x32x1x128 [0, 2, 1, 3] (m ((c : Thread nD τ).loc main_arg1)) transposes_S8x1x32x128_S8x32x1x128_0_2_1_3 := by
  show StableHlo.after hostOps0 (fun b => m (c, b)) (Proc.devRef .tc main_v1) = _
  after_results

/-- Entry `(b, h, 0, e)` of the region's key array is entry `(b, 0, h, e)` of the argument. -/
theorem V_k (c : Dev nD) (b : Fin 8) (h : Fin 32) (e : Fin 128) :
    V m c main_v1 (ix4 b h (0 : Fin 1) e) = m ((c : Thread nD τ).loc main_arg1) (ix4 b (0 : Fin 1) h e) := by
  refine (congrFun (V_main_v1 m c) (ix4 b h (0 : Fin 1) e)).trans ?_
  exact transpose_apply _ _ _ (ix4 b h (0 : Fin 1) e) (ix4 b (0 : Fin 1) h e) (fun a => by
    match a with | ⟨0, _⟩ => rfl | ⟨1, _⟩ => rfl | ⟨2, _⟩ => rfl | ⟨3, _⟩ => rfl)

theorem V_main_v2 (c : Dev nD) : (V m c main_v2 : S8x32x1x128.Idx → Elt F .f32)
    = transpose S8x32x1x128 [0, 2, 1, 3] (m ((c : Thread nD τ).loc main_arg2)) transposes_S8x1x32x128_S8x32x1x128_0_2_1_3 := by
  show StableHlo.after hostOps0 (fun b => m (c, b)) (Proc.devRef .tc main_v2) = _
  after_results

/-- Entry `(b, h, 0, e)` of the region's value array is entry `(b, 0, h, e)` of the argument. -/
theorem V_v (c : Dev nD) (b : Fin 8) (h : Fin 32) (e : Fin 128) :
    V m c main_v2 (ix4 b h (0 : Fin 1) e) = m ((c : Thread nD τ).loc main_arg2) (ix4 b (0 : Fin 1) h e) := by
  refine (congrFun (V_main_v2 m c) (ix4 b h (0 : Fin 1) e)).trans ?_
  exact transpose_apply _ _ _ (ix4 b h (0 : Fin 1) e) (ix4 b (0 : Fin 1) h e) (fun a => by
    match a with | ⟨0, _⟩ => rfl | ⟨1, _⟩ => rfl | ⟨2, _⟩ => rfl | ⟨3, _⟩ => rfl)

/-! ## The input blocks, entry by entry

Entry `(0, hh, ·, ·)` of a point's block is the array's entry at the point's batch and at head `hh` of its pair. -/

/-- The query block: feature `e` of head `hh` of the pair. -/
theorem read_q (c : Dev nD) (t : Fin cfg0.N) (hh : Fin 2) (e : Fin 128) :
    (iblk m c 0 t : Vec F S1x2x1x128 .f32) (ix4 (0 : Fin 1) hh (0 : Fin 1) e) = V m c main_v0 (ix4 (bOf t) (hd (gOf t) hh) (0 : Fin 1) e) := by
  obtain ⟨h0, h1, h2, h3⟩ := idx6 t
  obtain ⟨e0, e1, e2, e3⟩ := idx0 t
  unfold iblk
  rw [View.read_apply]
  show V m c main_v0 _ = V m c main_v0 _
  refine congrArg (V m c main_v0) (funext fun a => Fin.ext ?_)
  match a with
  | ⟨0, _⟩ => show win0_0.index t (0 : Fin 4) * 1 + 1 * 0 = win0_6.index t (0 : Fin 4); omega
  | ⟨1, _⟩ => show win0_0.index t (1 : Fin 4) * 2 + 1 * hh.val = 2 * win0_6.index t (1 : Fin 4) + hh.val; omega
  | ⟨2, _⟩ => show win0_0.index t (2 : Fin 4) * 1 + 1 * 0 = 0; omega
  | ⟨3, _⟩ => show win0_0.index t (3 : Fin 4) * 128 + 1 * e.val = e.val; omega

/-- The key block: feature `e` of head `hh` of the pair. -/
theorem read_k (c : Dev nD) (t : Fin cfg0.N) (hh : Fin 2) (e : Fin 128) :
    (iblk m c 1 t : Vec F S1x2x1x128 .f32) (ix4 (0 : Fin 1) hh (0 : Fin 1) e) = V m c main_v1 (ix4 (bOf t) (hd (gOf t) hh) (0 : Fin 1) e) := by
  obtain ⟨h0, h1, h2, h3⟩ := idx6 t
  obtain ⟨e0, e1, e2, e3⟩ := idx1 t
  unfold iblk
  rw [View.read_apply]
  show V m c main_v1 _ = V m c main_v1 _
  refine congrArg (V m c main_v1) (funext fun a => Fin.ext ?_)
  match a with
  | ⟨0, _⟩ => show win0_1.index t (0 : Fin 4) * 1 + 1 * 0 = win0_6.index t (0 : Fin 4); omega
  | ⟨1, _⟩ => show win0_1.index t (1 : Fin 4) * 2 + 1 * hh.val = 2 * win0_6.index t (1 : Fin 4) + hh.val; omega
  | ⟨2, _⟩ => show win0_1.index t (2 : Fin 4) * 1 + 1 * 0 = 0; omega
  | ⟨3, _⟩ => show win0_1.index t (3 : Fin 4) * 128 + 1 * e.val = e.val; omega

/-- The value block: feature `e` of head `hh` of the pair. -/
theorem read_v (c : Dev nD) (t : Fin cfg0.N) (hh : Fin 2) (e : Fin 128) :
    (iblk m c 2 t : Vec F S1x2x1x128 .f32) (ix4 (0 : Fin 1) hh (0 : Fin 1) e) = V m c main_v2 (ix4 (bOf t) (hd (gOf t) hh) (0 : Fin 1) e) := by
  obtain ⟨h0, h1, h2, h3⟩ := idx6 t
  obtain ⟨e0, e1, e2, e3⟩ := idx2 t
  unfold iblk
  rw [View.read_apply]
  show V m c main_v2 _ = V m c main_v2 _
  refine congrArg (V m c main_v2) (funext fun a => Fin.ext ?_)
  match a with
  | ⟨0, _⟩ => show win0_2.index t (0 : Fin 4) * 1 + 1 * 0 = win0_6.index t (0 : Fin 4); omega
  | ⟨1, _⟩ => show win0_2.index t (1 : Fin 4) * 2 + 1 * hh.val = 2 * win0_6.index t (1 : Fin 4) + hh.val; omega
  | ⟨2, _⟩ => show win0_2.index t (2 : Fin 4) * 1 + 1 * 0 = 0; omega
  | ⟨3, _⟩ => show win0_2.index t (3 : Fin 4) * 128 + 1 * e.val = e.val; omega

/-- The frequencies' block is the whole array. -/
theorem read_fc (c : Dev nD) (t : Fin cfg0.N) (e : Fin 64) :
    (iblk m c 3 t : Vec F S1x64 .f32) (ix2 (0 : Fin 1) e) = V m c main_arg5 (ix2 (0 : Fin 1) e) := by
  obtain ⟨e0, e1⟩ := idx3 t
  unfold iblk
  rw [View.read_apply]
  show V m c main_arg5 _ = V m c main_arg5 _
  refine congrArg (V m c main_arg5) (funext fun a => Fin.ext ?_)
  match a with
  | ⟨0, _⟩ => show win0_3.index t (0 : Fin 2) * 1 + 1 * 0 = 0; omega
  | ⟨1, _⟩ => show win0_3.index t (1 : Fin 2) * 64 + 1 * e.val = e.val; omega

/-- The cached keys' block: feature `e`, cache position `l` of head `hh` of the pair. -/
theorem read_cK (c : Dev nD) (t : Fin cfg0.N) (hh : Fin 2) (e : Fin 128) (l : Fin 4096) :
    (iblk m c 4 t : Vec F S1x2x128x4096 .f32) (ix4 (0 : Fin 1) hh e l) = V m c main_arg3 (ix4 (bOf t) (hd (gOf t) hh) e l) := by
  obtain ⟨h0, h1, h2, h3⟩ := idx6 t
  obtain ⟨e0, e1, e2, e3⟩ := idx4 t
  unfold iblk
  rw [View.read_apply]
  show V m c main_arg3 _ = V m c main_arg3 _
  refine congrArg (V m c main_arg3) (funext fun a => Fin.ext ?_)
  match a with
  | ⟨0, _⟩ => show win0_4.index t (0 : Fin 4) * 1 + 1 * 0 = win0_6.index t (0 : Fin 4); omega
  | ⟨1, _⟩ => show win0_4.index t (1 : Fin 4) * 2 + 1 * hh.val = 2 * win0_6.index t (1 : Fin 4) + hh.val; omega
  | ⟨2, _⟩ => show win0_4.index t (2 : Fin 4) * 128 + 1 * e.val = e.val; omega
  | ⟨3, _⟩ => show win0_4.index t (3 : Fin 4) * 4096 + 1 * l.val = l.val; omega

/-- The cached values' block: cache position `l`, feature `e` of head `hh` of the pair. -/
theorem read_cV (c : Dev nD) (t : Fin cfg0.N) (hh : Fin 2) (l : Fin 4096) (e : Fin 128) :
    (iblk m c 5 t : Vec F S1x2x4096x128 .f32) (ix4 (0 : Fin 1) hh l e) = V m c main_arg4 (ix4 (bOf t) (hd (gOf t) hh) l e) := by
  obtain ⟨h0, h1, h2, h3⟩ := idx6 t
  obtain ⟨e0, e1, e2, e3⟩ := idx5 t
  unfold iblk
  rw [View.read_apply]
  show V m c main_arg4 _ = V m c main_arg4 _
  refine congrArg (V m c main_arg4) (funext fun a => Fin.ext ?_)
  match a with
  | ⟨0, _⟩ => show win0_5.index t (0 : Fin 4) * 1 + 1 * 0 = win0_6.index t (0 : Fin 4); omega
  | ⟨1, _⟩ => show win0_5.index t (1 : Fin 4) * 2 + 1 * hh.val = 2 * win0_6.index t (1 : Fin 4) + hh.val; omega
  | ⟨2, _⟩ => show win0_5.index t (2 : Fin 4) * 4096 + 1 * l.val = l.val; omega
  | ⟨3, _⟩ => show win0_5.index t (3 : Fin 4) * 128 + 1 * e.val = e.val; omega

/-! ## The output blocks, entry by entry

Entry `(0, hh, ·, ·)` of a point's output block is the array's entry at the point's batch and at head `hh` of its pair. -/

/-- The result block: feature `d` of head `hh` of the pair. -/
theorem emb_res (t : Fin cfg0.N) (hh : Fin 2) (d : Fin 128) :
    ((cfg0.win 6).blk t).view.emb (ix4 (0 : Fin 1) hh (0 : Fin 1) d : S1x2x1x128.Idx) = ix4 (bOf t) (hd (gOf t) hh) (0 : Fin 1) d := by
  obtain ⟨h0, h1, h2, h3⟩ := idx6 t

  funext a
  apply Fin.ext
  match a with
  | ⟨0, _⟩ => show win0_6.index t (0 : Fin 4) * 1 + 1 * 0 = win0_6.index t (0 : Fin 4); omega
  | ⟨1, _⟩ => show win0_6.index t (1 : Fin 4) * 2 + 1 * hh.val = 2 * win0_6.index t (1 : Fin 4) + hh.val; omega
  | ⟨2, _⟩ => show win0_6.index t (2 : Fin 4) * 1 + 1 * 0 = 0; omega
  | ⟨3, _⟩ => show win0_6.index t (3 : Fin 4) * 128 + 1 * d.val = d.val; omega

/-- The extended key table's block: feature `d`, position `j` of head `hh` of the pair. -/
theorem emb_key (t : Fin cfg0.N) (hh : Fin 2) (d : Fin 128) (j : Fin 4097) :
    ((cfg0.win 7).blk t).view.emb (ix4 (0 : Fin 1) hh d j : S1x2x128x4097.Idx) = ix4 (bOf t) (hd (gOf t) hh) d j := by
  obtain ⟨h0, h1, h2, h3⟩ := idx6 t
  obtain ⟨e0, e1, e2, e3⟩ := idx7 t
  funext a
  apply Fin.ext
  match a with
  | ⟨0, _⟩ => show win0_7.index t (0 : Fin 4) * 1 + 1 * 0 = win0_6.index t (0 : Fin 4); omega
  | ⟨1, _⟩ => show win0_7.index t (1 : Fin 4) * 2 + 1 * hh.val = 2 * win0_6.index t (1 : Fin 4) + hh.val; omega
  | ⟨2, _⟩ => show win0_7.index t (2 : Fin 4) * 128 + 1 * d.val = d.val; omega
  | ⟨3, _⟩ => show win0_7.index t (3 : Fin 4) * 4097 + 1 * j.val = j.val; omega

/-- The extended value table's block: position `j`, feature `d` of head `hh` of the pair. -/
theorem emb_val (t : Fin cfg0.N) (hh : Fin 2) (j : Fin 4097) (d : Fin 128) :
    ((cfg0.win 8).blk t).view.emb (ix4 (0 : Fin 1) hh j d : S1x2x4097x128.Idx) = ix4 (bOf t) (hd (gOf t) hh) j d := by
  obtain ⟨h0, h1, h2, h3⟩ := idx6 t
  obtain ⟨e0, e1, e2, e3⟩ := idx8 t
  funext a
  apply Fin.ext
  match a with
  | ⟨0, _⟩ => show win0_8.index t (0 : Fin 4) * 1 + 1 * 0 = win0_6.index t (0 : Fin 4); omega
  | ⟨1, _⟩ => show win0_8.index t (1 : Fin 4) * 2 + 1 * hh.val = 2 * win0_6.index t (1 : Fin 4) + hh.val; omega
  | ⟨2, _⟩ => show win0_8.index t (2 : Fin 4) * 4097 + 1 * j.val = j.val; omega
  | ⟨3, _⟩ => show win0_8.index t (3 : Fin 4) * 128 + 1 * d.val = d.val; omega

/-! ## The output blocks cover the output arrays

Array index `i` lies in the block of the point whose batch is `i 0` and whose pair is `(i 1) / 2`; every point writes its
blocks back. -/

/-- An index of the array is in point `t`'s block iff each coordinate is in the block's range on its axis. -/
theorem mem_blk6 (t : Fin cfg0.N) (i : S8x32x1x128.Idx) :
    i ∈ ((cfg0.win 6).blk t).view.set ↔ ∀ a : Fin 4, win0_6.index t a * S1x2x1x128.size a ≤ (i a).val
      ∧ (i a).val < win0_6.index t a * S1x2x1x128.size a + S1x2x1x128.size a := by
  show i ∈ ((View.whole main_v3_0).slice (win0_6.rect t)).set ↔ _
  rw [View.set_slice_whole, Rect.mem_set_unit]
  exact Iff.rfl

/-- Every entry of the result array is in some point's block. -/
theorem cover_res (i : S8x32x1x128.Idx) :
    ∃ t : Fin cfg0.N, (cfg0.win 6).flush t = true ∧ i ∈ ((cfg0.win 6).blk t).view.set := by
  have hi0 : (i 0).val < 8 := (i 0).isLt
  have hi1 : (i 1).val < 32 := (i 1).isLt
  have hi2 : (i 2).val < 1 := (i 2).isLt
  have hi3 : (i 3).val < 128 := (i 3).isLt
  obtain ⟨t, q0, q1⟩ := idx_onto ⟨(i 0).val, hi0⟩ ⟨(i 1).val / 2, by omega⟩
  have q0' : win0_6.index t (0 : Fin 4) = (i 0).val := q0
  have q1' : win0_6.index t (1 : Fin 4) = (i 1).val / 2 := q1
  obtain ⟨h0, h1, h2, h3⟩ := idx6 t

  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 2 ≤ (i 1).val ∧ (i 1).val < win0_6.index t (1 : Fin 4) * 2 + 2; omega
  | ⟨2, _⟩ => show win0_6.index t (2 : Fin 4) * 1 ≤ (i 2).val ∧ (i 2).val < win0_6.index t (2 : Fin 4) * 1 + 1; omega
  | ⟨3, _⟩ => show win0_6.index t (3 : Fin 4) * 128 ≤ (i 3).val ∧ (i 3).val < win0_6.index t (3 : Fin 4) * 128 + 128; omega

/-- An index of the array is in point `t`'s block iff each coordinate is in the block's range on its axis. -/
theorem mem_blk7 (t : Fin cfg0.N) (i : S8x32x128x4097.Idx) :
    i ∈ ((cfg0.win 7).blk t).view.set ↔ ∀ a : Fin 4, win0_7.index t a * S1x2x128x4097.size a ≤ (i a).val
      ∧ (i a).val < win0_7.index t a * S1x2x128x4097.size a + S1x2x128x4097.size a := by
  show i ∈ ((View.whole main_v3_1).slice (win0_7.rect t)).set ↔ _
  rw [View.set_slice_whole, Rect.mem_set_unit]
  exact Iff.rfl

/-- Every entry of the extended key table is in some point's block. -/
theorem cover_key (i : S8x32x128x4097.Idx) :
    ∃ t : Fin cfg0.N, (cfg0.win 7).flush t = true ∧ i ∈ ((cfg0.win 7).blk t).view.set := by
  have hi0 : (i 0).val < 8 := (i 0).isLt
  have hi1 : (i 1).val < 32 := (i 1).isLt
  have hi2 : (i 2).val < 128 := (i 2).isLt
  have hi3 : (i 3).val < 4097 := (i 3).isLt
  obtain ⟨t, q0, q1⟩ := idx_onto ⟨(i 0).val, hi0⟩ ⟨(i 1).val / 2, by omega⟩
  have q0' : win0_6.index t (0 : Fin 4) = (i 0).val := q0
  have q1' : win0_6.index t (1 : Fin 4) = (i 1).val / 2 := q1
  obtain ⟨h0, h1, h2, h3⟩ := idx6 t
  obtain ⟨e0, e1, e2, e3⟩ := idx7 t
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 2 ≤ (i 1).val ∧ (i 1).val < win0_7.index t (1 : Fin 4) * 2 + 2; omega
  | ⟨2, _⟩ => show win0_7.index t (2 : Fin 4) * 128 ≤ (i 2).val ∧ (i 2).val < win0_7.index t (2 : Fin 4) * 128 + 128; omega
  | ⟨3, _⟩ => show win0_7.index t (3 : Fin 4) * 4097 ≤ (i 3).val ∧ (i 3).val < win0_7.index t (3 : Fin 4) * 4097 + 4097; omega

/-- An index of the array is in point `t`'s block iff each coordinate is in the block's range on its axis. -/
theorem mem_blk8 (t : Fin cfg0.N) (i : S8x32x4097x128.Idx) :
    i ∈ ((cfg0.win 8).blk t).view.set ↔ ∀ a : Fin 4, win0_8.index t a * S1x2x4097x128.size a ≤ (i a).val
      ∧ (i a).val < win0_8.index t a * S1x2x4097x128.size a + S1x2x4097x128.size a := by
  show i ∈ ((View.whole main_v3_2).slice (win0_8.rect t)).set ↔ _
  rw [View.set_slice_whole, Rect.mem_set_unit]
  exact Iff.rfl

/-- Every entry of the extended value table is in some point's block. -/
theorem cover_val (i : S8x32x4097x128.Idx) :
    ∃ t : Fin cfg0.N, (cfg0.win 8).flush t = true ∧ i ∈ ((cfg0.win 8).blk t).view.set := by
  have hi0 : (i 0).val < 8 := (i 0).isLt
  have hi1 : (i 1).val < 32 := (i 1).isLt
  have hi2 : (i 2).val < 4097 := (i 2).isLt
  have hi3 : (i 3).val < 128 := (i 3).isLt
  obtain ⟨t, q0, q1⟩ := idx_onto ⟨(i 0).val, hi0⟩ ⟨(i 1).val / 2, by omega⟩
  have q0' : win0_6.index t (0 : Fin 4) = (i 0).val := q0
  have q1' : win0_6.index t (1 : Fin 4) = (i 1).val / 2 := q1
  obtain ⟨h0, h1, h2, h3⟩ := idx6 t
  obtain ⟨e0, e1, e2, e3⟩ := idx8 t
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 2 ≤ (i 1).val ∧ (i 1).val < win0_8.index t (1 : Fin 4) * 2 + 2; omega
  | ⟨2, _⟩ => show win0_8.index t (2 : Fin 4) * 4097 ≤ (i 2).val ∧ (i 2).val < win0_8.index t (2 : Fin 4) * 4097 + 4097; omega
  | ⟨3, _⟩ => show win0_8.index t (3 : Fin 4) * 128 ≤ (i 3).val ∧ (i 3).val < win0_8.index t (3 : Fin 4) * 128 + 128; omega

end Cert.KernelIdeal.Blocks

end
-- ==== Proof.KernelRun.lean ====
/-
  The kernel program's three results as functions of its argument arrays.

  Each grid point `t` holds batch `b` and the two heads `2g`, `2g + 1`; it reads those heads' rows of the transposed
  query, key and value arrays and their cached tables, and writes their rows of the three output arrays. The blocks
  of the points tile each output array, so each array ends as one function of the arrays the region finds:
  the attention result, the extended key table, the extended value table. Before the region the host transposes
  the query, key and value arrays (`[b, 0, h, ·]` becomes `[b, h, 0, ·]`), after it it transposes the result back;
  read through those, the three results are `resArr`, `keyArr` and `valArr` of the program's arguments.
-/
import proofs.«180900_j15144054686381_2_alg».proof.Proof.Gen.KernelIdeal.Frame
import proofs.«180900_j15144054686381_2_alg».proof.Proof.BodyBlocks
import proofs.«180900_j15144054686381_2_alg».proof.Proof.Blocks
import Idealize.ShloMosaic.Lib.Pipeline.Value
import Idealize.ShloMosaic.Lib.StableHlo.Run
import Idealize.ShloMosaic.Lib.Tactic

set_option maxRecDepth 16384

noncomputable section

namespace Cert.KernelIdeal.Final

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen Cert.KernelIdeal.HeadValue Cert.KernelIdeal.BodyBlocks Cert.KernelIdeal.Blocks Cert.Attn

variable (m : (ℓ : Loc nD τ sig) → Buf (Elt Ideal) ℓ) (ρ : Dev nD → PrngReg)

/-! ## The output arrays over the arrays the region finds -/

/-- The result array `[8, 32, 1, 128]` from the transposed query, key and value arrays and the caches. -/
def resG (Q K W : S8x32x1x128.Idx → EReal) (fc : S1x64.Idx → EReal) (cK : S8x32x128x4096.Idx → EReal)
    (cV : S8x32x4096x128.Idx → EReal) : S8x32x1x128.Idx → EReal :=
  fun i => headOut (fun e => Q (ix4 (i 0) (i 1) (0 : Fin 1) e)) (fun e => K (ix4 (i 0) (i 1) (0 : Fin 1) e))
    (fun e => W (ix4 (i 0) (i 1) (0 : Fin 1) e)) (fun e => fc (ix2 (0 : Fin 1) e)) (fun e l => cK (ix4 (i 0) (i 1) e l))
    (fun l e => cV (ix4 (i 0) (i 1) l e)) (i 3)

/-- The extended key table `[8, 32, 128, 4097]`. -/
def keyG (K : S8x32x1x128.Idx → EReal) (fc : S1x64.Idx → EReal) (cK : S8x32x128x4096.Idx → EReal) : S8x32x128x4097.Idx → EReal :=
  fun i => Fin.cases (motive := fun _ => EReal) (rot (fun e => K (ix4 (i 0) (i 1) (0 : Fin 1) e)) (fun e => fc (ix2 (0 : Fin 1) e)) (i 2))
    (fun l : Fin 4096 => cK (ix4 (i 0) (i 1) (i 2) l)) (i 3)

/-- The extended value table `[8, 32, 4097, 128]`. -/
def valG (W : S8x32x1x128.Idx → EReal) (cV : S8x32x4096x128.Idx → EReal) : S8x32x4097x128.Idx → EReal :=
  fun i => Fin.cases (motive := fun _ => EReal) (W (ix4 (i 0) (i 1) (0 : Fin 1) (i 3)))
    (fun l : Fin 4096 => cV (ix4 (i 0) (i 1) l (i 3))) (i 2)

/-! ## What each point writes back is its block of those arrays -/

theorem flushed_res (c : Dev nD) (t : Fin cfg0.N) :
    (dats m 0 c).flushed 6 t = ((cfg0.win 6).blk t).view.read (Elt Ideal) (resG (V m c main_v0) (V m c main_v1) (V m c main_v2) (V m c main_arg5) (V m c main_arg3) (V m c main_arg4)) := by
  show (cfg0.win 6).cut (grid0.coords t) ((dats m 0 c).after 6 t) = _
  rw [after0_6]
  unfold outsAt0
  dsimp only
  rw [res_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t)]
  funext y
  obtain ⟨a, hh, cc, d, rfl⟩ : ∃ (a : Fin 1) (hh : Fin 2) (cc : Fin 1) (d : Fin 128), y = ix4 a hh cc d :=
    ⟨y 0, y 1, y 2, y 3, eq_ix4 (n0 := 1) (n1 := 2) (n2 := 1) (n3 := 128) y⟩
  obtain rfl : a = 0 := Subsingleton.elim _ _
  obtain rfl : cc = 0 := Subsingleton.elim _ _
  show resBlk (iblk m c 0 t) (iblk m c 1 t) (iblk m c 2 t) (iblk m c 3 t) (iblk m c 4 t) (iblk m c 5 t) (ix4 0 hh 0 d) = resG (V m c main_v0) (V m c main_v1) (V m c main_v2) (V m c main_arg5) (V m c main_arg3) (V m c main_arg4) (((cfg0.win 6).blk t).view.emb (ix4 0 hh 0 d))
  rw [emb_res]
  show headOut (fun e => iblk m c 0 t (ix4 (0 : Fin 1) hh (0 : Fin 1) e)) (fun e => iblk m c 1 t (ix4 (0 : Fin 1) hh (0 : Fin 1) e))
      (fun e => iblk m c 2 t (ix4 (0 : Fin 1) hh (0 : Fin 1) e)) (fun e => iblk m c 3 t (ix2 (0 : Fin 1) e))
      (fun e l => iblk m c 4 t (ix4 (0 : Fin 1) hh e l)) (fun l e => iblk m c 5 t (ix4 (0 : Fin 1) hh l e)) d
    = headOut (fun e => V m c main_v0 (ix4 (bOf t) (hd (gOf t) hh) (0 : Fin 1) e)) (fun e => V m c main_v1 (ix4 (bOf t) (hd (gOf t) hh) (0 : Fin 1) e))
      (fun e => V m c main_v2 (ix4 (bOf t) (hd (gOf t) hh) (0 : Fin 1) e)) (fun e => V m c main_arg5 (ix2 (0 : Fin 1) e))
      (fun e l => V m c main_arg3 (ix4 (bOf t) (hd (gOf t) hh) e l)) (fun l e => V m c main_arg4 (ix4 (bOf t) (hd (gOf t) hh) l e)) d
  simp only [read_q m, read_k m, read_v m, read_fc m, read_cK m, read_cV m]

theorem flushed_key (c : Dev nD) (t : Fin cfg0.N) :
    (dats m 0 c).flushed 7 t = ((cfg0.win 7).blk t).view.read (Elt Ideal) (keyG (V m c main_v1) (V m c main_arg5) (V m c main_arg3)) := by
  show (cfg0.win 7).cut (grid0.coords t) ((dats m 0 c).after 7 t) = _
  rw [after0_7]
  unfold outsAt0
  dsimp only
  rw [key_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t)]
  funext y
  obtain ⟨a, hh, d, j, rfl⟩ : ∃ (a : Fin 1) (hh : Fin 2) (d : Fin 128) (j : Fin 4097), y = ix4 a hh d j :=
    ⟨y 0, y 1, y 2, y 3, eq_ix4 (n0 := 1) (n1 := 2) (n2 := 128) (n3 := 4097) y⟩
  obtain rfl : a = 0 := Subsingleton.elim _ _
  show keyBlk (iblk m c 1 t) (iblk m c 3 t) (iblk m c 4 t) (ix4 0 hh d j)
    = keyG (V m c main_v1) (V m c main_arg5) (V m c main_arg3) (((cfg0.win 7).blk t).view.emb (ix4 0 hh d j))
  rw [emb_key]
  show Fin.cases (motive := fun _ => EReal) (rot (fun e => iblk m c 1 t (ix4 (0 : Fin 1) hh (0 : Fin 1) e)) (fun e => iblk m c 3 t (ix2 (0 : Fin 1) e)) d)
      (fun l : Fin 4096 => iblk m c 4 t (ix4 (0 : Fin 1) hh d l)) j
    = Fin.cases (motive := fun _ => EReal) (rot (fun e => V m c main_v1 (ix4 (bOf t) (hd (gOf t) hh) (0 : Fin 1) e)) (fun e => V m c main_arg5 (ix2 (0 : Fin 1) e)) d)
      (fun l : Fin 4096 => V m c main_arg3 (ix4 (bOf t) (hd (gOf t) hh) d l)) j
  simp only [read_k m, read_fc m, read_cK m]

theorem flushed_val (c : Dev nD) (t : Fin cfg0.N) :
    (dats m 0 c).flushed 8 t = ((cfg0.win 8).blk t).view.read (Elt Ideal) (valG (V m c main_v2) (V m c main_arg4)) := by
  show (cfg0.win 8).cut (grid0.coords t) ((dats m 0 c).after 8 t) = _
  rw [after0_8]
  unfold outsAt0
  dsimp only
  rw [val_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t)]
  funext y
  obtain ⟨a, hh, j, d, rfl⟩ : ∃ (a : Fin 1) (hh : Fin 2) (j : Fin 4097) (d : Fin 128), y = ix4 a hh j d :=
    ⟨y 0, y 1, y 2, y 3, eq_ix4 (n0 := 1) (n1 := 2) (n2 := 4097) (n3 := 128) y⟩
  obtain rfl : a = 0 := Subsingleton.elim _ _
  show valBlk (iblk m c 2 t) (iblk m c 5 t) (ix4 0 hh j d)
    = valG (V m c main_v2) (V m c main_arg4) (((cfg0.win 8).blk t).view.emb (ix4 0 hh j d))
  rw [emb_val]
  show Fin.cases (motive := fun _ => EReal) (iblk m c 2 t (ix4 (0 : Fin 1) hh (0 : Fin 1) d))
      (fun l : Fin 4096 => iblk m c 5 t (ix4 (0 : Fin 1) hh l d)) j
    = Fin.cases (motive := fun _ => EReal) (V m c main_v2 (ix4 (bOf t) (hd (gOf t) hh) (0 : Fin 1) d))
      (fun l : Fin 4096 => V m c main_arg4 (ix4 (bOf t) (hd (gOf t) hh) l d)) j
  simp only [read_v m, read_cV m]

/-! ## The arrays after the run -/

theorem final_res (c : Dev nD) : (dats m 0 c).arrAt 6 cfg0.N = resG (V m c main_v0) (V m c main_v1) (V m c main_v2) (V m c main_arg5) (V m c main_arg3) (V m c main_arg4) :=
  (dats m 0 c).arrAt_eq_of_cover 6 _ (fun t _ => flushed_res m c t) cover_res

theorem final_key (c : Dev nD) : (dats m 0 c).arrAt 7 cfg0.N = keyG (V m c main_v1) (V m c main_arg5) (V m c main_arg3) :=
  (dats m 0 c).arrAt_eq_of_cover 7 _ (fun t _ => flushed_key m c t) cover_key

theorem final_val (c : Dev nD) : (dats m 0 c).arrAt 8 cfg0.N = valG (V m c main_v2) (V m c main_arg4) :=
  (dats m 0 c).arrAt_eq_of_cover 8 _ (fun t _ => flushed_val m c t) cover_val

/-! ## The host's transposes, and the results over the program's arguments -/

/-- The result the host returns: the region's result array, transposed back. -/
theorem tail_res (c : Dev nD) :
    Pipeline.afterTail₀ cfgs (dats m) 0 (V0 m) [hostOps1] c main_v4
      = transpose S8x1x32x128 [0, 2, 1, 3] (resG (V m c main_v0) (V m c main_v1) (V m c main_v2) (V m c main_arg5) (V m c main_arg3) (V m c main_arg4)) transposes_S8x32x1x128_S8x1x32x128_0_2_1_3 := by
  unfold Pipeline.afterTail₀
  show StableHlo.after hostOps1 _ (Proc.devRef .tc main_v4) = _
  after_results
  exact congrArg (transpose S8x1x32x128 [0, 2, 1, 3] · transposes_S8x32x1x128_S8x1x32x128_0_2_1_3)
    ((Pipeline.withArrays_arr spec0 launch0.win.arr_inj c _ _ 6).trans (final_res m c))

/-- Transposed back, and read through the host's transposes of the query, key and value arrays, the result array
    is the attention result of the program's arguments. -/
theorem res_value (c : Dev nD) :
    transpose S8x1x32x128 [0, 2, 1, 3] (resG (V m c main_v0) (V m c main_v1) (V m c main_v2) (V m c main_arg5) (V m c main_arg3) (V m c main_arg4)) transposes_S8x32x1x128_S8x1x32x128_0_2_1_3
      = resArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  obtain ⟨b, o, h, d, rfl⟩ : ∃ (b : Fin 8) (o : Fin 1) (h : Fin 32) (d : Fin 128), i = ix4 b o h d :=
    ⟨i 0, i 1, i 2, i 3, eq_ix4 (n0 := 8) (n1 := 1) (n2 := 32) (n3 := 128) i⟩
  obtain rfl : o = 0 := Subsingleton.elim _ _
  rw [resArr_head]
  refine (transpose_apply [0, 2, 1, 3] _ transposes_S8x32x1x128_S8x1x32x128_0_2_1_3 (ix4 b (0 : Fin 1) h d) (ix4 b h (0 : Fin 1) d)
    (fun a => match a with | ⟨0, _⟩ => rfl | ⟨1, _⟩ => rfl | ⟨2, _⟩ => rfl | ⟨3, _⟩ => rfl)).trans ?_
  show headOut (fun e => V m c main_v0 (ix4 b h (0 : Fin 1) e)) (fun e => V m c main_v1 (ix4 b h (0 : Fin 1) e))
      (fun e => V m c main_v2 (ix4 b h (0 : Fin 1) e)) (fun e => V m c main_arg5 (ix2 (0 : Fin 1) e))
      (fun e l => V m c main_arg3 (ix4 b h e l)) (fun l e => V m c main_arg4 (ix4 b h l e)) d = _
  simp only [V_q m, V_k m, V_v m]
  rw [V_main_arg3 m c, V_main_arg4 m c, V_main_arg5 m c]

/-- The region's key array is the extended key table of the program's arguments. -/
theorem key_value (c : Dev nD) :
    keyG (V m c main_v1) (V m c main_arg5) (V m c main_arg3) = keyArr (m ((c.tc : Thread nD τ).loc main_arg1)) (m ((c.tc : Thread nD τ).loc main_arg3)) (m ((c.tc : Thread nD τ).loc main_arg5)) := by
  funext i
  obtain ⟨b, h, d, j, rfl⟩ : ∃ (b : Fin 8) (h : Fin 32) (d : Fin 128) (j : Fin 4097), i = ix4 b h d j :=
    ⟨i 0, i 1, i 2, i 3, eq_ix4 (n0 := 8) (n1 := 32) (n2 := 128) (n3 := 4097) i⟩
  rw [keyArr_apply]
  show Fin.cases (motive := fun _ => EReal) (rot (fun e => V m c main_v1 (ix4 b h (0 : Fin 1) e)) (fun e => V m c main_arg5 (ix2 (0 : Fin 1) e)) d)
      (fun l : Fin 4096 => V m c main_arg3 (ix4 b h d l)) j = _
  simp only [V_k m]
  rw [V_main_arg3 m c, V_main_arg5 m c]

/-- The region's value array is the extended value table of the program's arguments. -/
theorem val_value (c : Dev nD) :
    valG (V m c main_v2) (V m c main_arg4) = valArr (m ((c.tc : Thread nD τ).loc main_arg2)) (m ((c.tc : Thread nD τ).loc main_arg4)) := by
  funext i
  obtain ⟨b, h, j, d, rfl⟩ : ∃ (b : Fin 8) (h : Fin 32) (j : Fin 4097) (d : Fin 128), i = ix4 b h j d :=
    ⟨i 0, i 1, i 2, i 3, eq_ix4 (n0 := 8) (n1 := 32) (n2 := 4097) (n3 := 128) i⟩
  rw [valArr_apply]
  show Fin.cases (motive := fun _ => EReal) (V m c main_v2 (ix4 b h (0 : Fin 1) d))
      (fun l : Fin 4096 => V m c main_arg4 (ix4 b h l d)) j = _
  simp only [V_v m]
  rw [V_main_arg4 m c]

/-! ## The run -/

/-- Every weakly fair execution of the kernel program terminates with its three results at the attention
    result, the extended key table and the extended value table of its arguments, and the arguments unchanged. -/
theorem run : θ_run defs (onTc (τ := τ) (main (F := Ideal))) ⟨m, fun _ => 0, ρ⟩ (fun r => ∀ c : Dev nD,
      r.2.mem ((c.tc : Thread nD τ).loc main_v4) = resArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v3_1) = keyArr (m ((c.tc : Thread nD τ).loc main_arg1)) (m ((c.tc : Thread nD τ).loc main_arg3)) (m ((c.tc : Thread nD τ).loc main_arg5))
      ∧ r.2.mem ((c.tc : Thread nD τ).loc main_v3_2) = valArr (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      (((h c).2 main_v4 (Pipeline.mem_restRefs_of main_v4 (by decide) (by decide))).trans (tail_res m c)).trans (res_value m c),
      (((h c).1 7).trans (final_key m c)).trans (key_value m c),
      (((h c).1 8).trans (final_val m c)).trans (val_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 3).trans (((dats m 0 c).arrAt_in 3 rfl _).trans ((A_eq m c 3).trans (V_main_arg5 m c)))⟩)
    (run_main m ρ)

end Cert.KernelIdeal.Final

end
-- ==== Proof.lean ====
/-
  A kernel for one decoding step of attention with a key/value cache, against its reference, on the extended reals.

  For every batch and head both programs rotate the new token's query and key (the front 64 features times the
  frequencies, joined with themselves), put the rotated key in front of the cached keys and the new value row in
  front of the cached values, score the query against all 4097 positions (inner product divided by 128), take the
  softmax of the scores and return the weighted sum of the 4097 value rows, together with the two extended tables.

  The reference does this in one piece over the extended tables. The kernel never forms them for the arithmetic: it
  scores the new token and the 4096 cached positions apart, joins the new token's score to the maximum of the others
  by one more `max`, adds its exponential in front of the others' sum, and adds its weighted value row in front of the
  cached weights' product with the cached values; it multiplies by the word for 1/128 where the reference divides by
  the word for 128; and it rounds to a shorter float format on the way into its two products, which at the extended
  reals is the identity. Both arrangements are the same function: a maximum, a sum and a weighted sum over 4097
  positions are the term at position 0 joined with the same over the other 4096 (`max` and `+` commute and associate
  on the extended reals; no value need be finite), and 1/128 is a power of two, so the two scalings agree exactly.

  The modules: `Attention` states the three results as functions of the arguments and proves the splitting laws;
  `RefSide` reads the reference's host operations, one at a time, as those functions; `Head`, `HeadValue`,
  `BodyBlocks`, `Blocks` and `KernelRun` read the kernel — one head's arithmetic, what a grid point leaves in its
  three output blocks, which rows of the arrays a point's blocks are, and the arrays after all points and the host's
  transposes. Here the two runs are put side by side. The idealization rewrote nothing, so `preserves` is trivial.
-/
import proofs.«180900_j15144054686381_2_alg».proof.Defs
import proofs.«180900_j15144054686381_2_alg».proof.Proof.Gen.Kernel
import proofs.«180900_j15144054686381_2_alg».proof.Proof.Gen.Kernel.Skeleton
import proofs.«180900_j15144054686381_2_alg».proof.Proof.Gen.Kernel.Launch
import proofs.«180900_j15144054686381_2_alg».proof.Proof.Gen.Kernel.Points
import proofs.«180900_j15144054686381_2_alg».proof.Proof.Gen.Kernel.Frame
import proofs.«180900_j15144054686381_2_alg».proof.Proof.Gen.KernelIdeal
import proofs.«180900_j15144054686381_2_alg».proof.Proof.Gen.KernelIdeal.Skeleton
import proofs.«180900_j15144054686381_2_alg».proof.Proof.Gen.KernelIdeal.Launch
import proofs.«180900_j15144054686381_2_alg».proof.Proof.Gen.KernelIdeal.Points
import proofs.«180900_j15144054686381_2_alg».proof.Proof.Gen.KernelIdeal.Frame
import proofs.«180900_j15144054686381_2_alg».proof.Proof.Gen.ReferenceIdeal
import proofs.«180900_j15144054686381_2_alg».proof.Proof.Gen.ReferenceIdeal.Run
import proofs.«180900_j15144054686381_2_alg».proof.Proof.Gen.ReferenceIdeal.Read
import proofs.«180900_j15144054686381_2_alg».proof.Proof.Gen.Pre_finite_inputs
import proofs.«180900_j15144054686381_2_alg».proof.Proof.RefSide
import proofs.«180900_j15144054686381_2_alg».proof.Proof.KernelRun
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run, the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From arguments that agree, the kernel's three result arrays end at the attention result, the extended key
    table and the extended value table of its arguments, and the reference's three results at the same functions of
    its own arguments. -/
theorem algebraic : Cert.algebraic_KernelIdeal_ReferenceIdeal := by
  intro m ρ m' ρ' _ hagree
  refine ⟨_, _, _, Cert.KernelIdeal.Final.run m ρ, ?_⟩
  refine (θ_run Cert.ReferenceIdeal.defs _ _).mono (fun r h c => ?_) (Cert.ReferenceIdeal.Value.run (F := Ideal) m' ρ')
  obtain ⟨h29, h12, h13, hargs⟩ := h c
  obtain ⟨a0, a1, a2, a3, a4, a5⟩ := hagree c
  refine ⟨h29.trans ?_, h12.trans ?_, h13.trans ?_, hargs⟩
  · rw [Cert.ReferenceIdeal.Read.val_main_v29_eq, Cert.Attn.Ref.res_eq, a0, a1, a2, a3, a4, a5]
  · rw [Cert.ReferenceIdeal.Read.val_main_v12_eq, Cert.Attn.Ref.key_eq, a1, a3, a5]
  · rw [Cert.ReferenceIdeal.Read.val_main_v13_eq, Cert.Attn.Ref.val_eq, a2, a4]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
